-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100000x32 : Shape := ⟨3, ![4, 100000, 32]⟩
abbrev S4x100000x3 : Shape := ⟨3, ![4, 100000, 3]⟩
abbrev S4x50000x3 : Shape := ⟨3, ![4, 50000, 3]⟩
abbrev S4x100000 : Shape := ⟨2, ![4, 100000]⟩
abbrev S4x50000x12 : Shape := ⟨3, ![4, 50000, 12]⟩
abbrev S32x64 : Shape := ⟨2, ![32, 64]⟩
abbrev S64 : Shape := ⟨1, ![64]⟩
abbrev S_ : Shape := ⟨0, ![]⟩

class Facts : Prop where
  bcast_S_S4x100000x32 : S_.BroadcastsInDim S4x100000x32 (![] : Fin 0 → Fin S4x100000x32.rank)
  reducesTo_S4x100000x32_S_d0_1_2 : S4x100000x32.ReducesTo [0, 1, 2] S_
  h_S_ : 0 < S_.numel
  bcast_S_S4x100000x3 : S_.BroadcastsInDim S4x100000x3 (![] : Fin 0 → Fin S4x100000x3.rank)
  reducesTo_S4x100000x3_S_d0_1_2 : S4x100000x3.ReducesTo [0, 1, 2] S_
  bcast_S_S4x50000x3 : S_.BroadcastsInDim S4x50000x3 (![] : Fin 0 → Fin S4x50000x3.rank)
  reducesTo_S4x50000x3_S_d0_1_2 : S4x50000x3.ReducesTo [0, 1, 2] S_
  bcast_S_S4x100000 : S_.BroadcastsInDim S4x100000 (![] : Fin 0 → Fin S4x100000.rank)
  reducesTo_S4x100000_S_d0_1 : S4x100000.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S32x64 .f32) (main_arg6 : FVec F S64 .f32) (main_v13 : IVec S_ 1) (main_v16 : IVec S4x100000 1) : IVec S_ 1 :=
  let main_c_5 : IVec S_ 1 := constantI S_ 1 1#1
  let main_v17 : IVec S_ 1 := (fun x v => Host.reduce IntOp.andi x v reducesTo_S4x100000_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4x100000x32 .f32) (main_arg1 : FVec F S4x100000x3 .f32) (main_arg2 : FVec F S4x50000x3 .f32) (main_arg3 : FVec F S4x100000 .f32) (main_arg4 : IVec S4x50000x12 32) (main_arg5 : FVec F S32x64 .f32) (main_arg6 : FVec F S64 .f32) : IVec S_ 1 :=
  let main_v0 : FVec F S4x100000x32 .f32 := Host.absf main_arg0
  let main_cst : FVec F S_ .f32 := constant S_ .f32 0x7F800000#32
  let main_v1 : FVec F S4x100000x32 .f32 := broadcastInDim S4x100000x32 ![] bcast_S_S4x100000x32 main_cst
  let main_v2 : IVec S4x100000x32 1 := cmpf .olt main_v0 main_v1
  let main_c : IVec S_ 1 := constantI S_ 1 1#1
  let main_v3 : IVec S_ 1 := (fun x v => Host.reduce IntOp.andi x v reducesTo_S4x100000x32_S_d0_1_2 h_S_) main_v2 main_c
  let main_v4 : FVec F S4x100000x3 .f32 := Host.absf main_arg1
  let main_cst_0 : FVec F S_ .f32 := constant S_ .f32 0x7F800000#32
  let main_v5 : FVec F S4x100000x3 .f32 := broadcastInDim S4x100000x3 ![] bcast_S_S4x100000x3 main_cst_0
  let main_v6 : IVec S4x100000x3 1 := cmpf .olt main_v4 main_v5
  let main_c_1 : IVec S_ 1 := constantI S_ 1 1#1
  let main_v7 : IVec S_ 1 := (fun x v => Host.reduce IntOp.andi x v reducesTo_S4x100000x3_S_d0_1_2 h_S_) main_v6 main_c_1
  let main_v8 : IVec S_ 1 := andi main_v3 main_v7
  let main_v9 : FVec F S4x50000x3 .f32 := Host.absf main_arg2
  let main_cst_2 : FVec F S_ .f32 := constant S_ .f32 0x7F800000#32
  let main_v10 : FVec F S4x50000x3 .f32 := broadcastInDim S4x50000x3 ![] bcast_S_S4x50000x3 main_cst_2
  let main_v11 : IVec S4x50000x3 1 := cmpf .olt main_v9 main_v10
  let main_c_3 : IVec S_ 1 := constantI S_ 1 1#1
  let main_v12 : IVec S_ 1 := (fun x v => Host.reduce IntOp.andi x v reducesTo_S4x50000x3_S_d0_1_2 h_S_) main_v11 main_c_3
  let main_v13 : IVec S_ 1 := andi main_v8 main_v12
  let main_v14 : FVec F S4x100000 .f32 := Host.absf main_arg3
  let main_cst_4 : FVec F S_ .f32 := constant S_ .f32 0x7F800000#32
  let main_v15 : FVec F S4x100000 .f32 := broadcastInDim S4x100000 ![] bcast_S_S4x100000 main_cst_4
  let main_v16 : IVec S4x100000 1 := cmpf .olt main_v14 main_v15
  fn_part1 (F := F) main_arg5 main_arg6 main_v13 main_v16
-- ==== Kernel.lean ====
abbrev S4x100000x32 : Shape := ⟨3, ![4, 100000, 32]⟩
abbrev S4x100000x3 : Shape := ⟨3, ![4, 100000, 3]⟩
abbrev S4x50000x3 : Shape := ⟨3, ![4, 50000, 3]⟩
abbrev S4x100000 : Shape := ⟨2, ![4, 100000]⟩
abbrev S4x50000x12 : Shape := ⟨3, ![4, 50000, 12]⟩
abbrev S32x64 : Shape := ⟨2, ![32, 64]⟩
abbrev S64 : Shape := ⟨1, ![64]⟩
abbrev S_ : Shape := ⟨0, ![]⟩
abbrev S4x100000x1 : Shape := ⟨3, ![4, 100000, 1]⟩
abbrev S4x50000x12x1 : Shape := ⟨4, ![4, 50000, 12, 1]⟩
abbrev S4x50000x1 : Shape := ⟨3, ![4, 50000, 1]⟩
abbrev S4x50000 : Shape := ⟨2, ![4, 50000]⟩
abbrev S4x50176x12 : Shape := ⟨3, ![4, 50176, 12]⟩
abbrev S4x12x50176 : Shape := ⟨3, ![4, 12, 50176]⟩
abbrev S1x12x25088 : Shape := ⟨3, ![1, 12, 25088]⟩
abbrev S12x25088 : Shape := ⟨2, ![12, 25088]⟩
abbrev S25088 : Shape := ⟨1, ![25088]⟩
abbrev S1x25088 : Shape := ⟨2, ![1, 25088]⟩

abbrev nBuf : Space → Nat
  | .hbm => 70
  | .vmem => 4
  | .smem => 0
  | _ => 0

abbrev bufTy : (tb : Table) → Fin (tcTables nBuf tb) → BufTy
  | .hbm, ⟨0, _⟩ => ⟨S4x100000x32, .f32⟩
  | .hbm, ⟨1, _⟩ => ⟨S4x100000x3, .f32⟩
  | .hbm, ⟨2, _⟩ => ⟨S4x50000x3, .f32⟩
  | .hbm, ⟨3, _⟩ => ⟨S4x100000, .f32⟩
  | .hbm, ⟨4, _⟩ => ⟨S4x50000x12, .i32⟩
  | .hbm, ⟨5, _⟩ => ⟨S32x64, .f32⟩
  | .hbm, ⟨6, _⟩ => ⟨S64, .f32⟩
  | .hbm, ⟨7, _⟩ => ⟨S_, .f32⟩
  | .hbm, ⟨8, _⟩ => ⟨S4x50000x12, .f32⟩
  | .hbm, ⟨9, _⟩ => ⟨S4x100000x1, .f32⟩
  | .hbm, ⟨10, _⟩ => ⟨S4x100000, .f32⟩
  | .hbm, ⟨11, _⟩ => ⟨S_, .i32⟩
  | .hbm, ⟨12, _⟩ => ⟨S4x50000x12, .i32⟩
  | .hbm, ⟨13, _⟩ => ⟨S4x50000x12, .i1⟩
  | .hbm, ⟨14, _⟩ => ⟨S_, .i32⟩
  | .hbm, ⟨15, _⟩ => ⟨S4x50000x12, .i32⟩
  | .hbm, ⟨16, _⟩ => ⟨S4x50000x12, .i32⟩
  | .hbm, ⟨17, _⟩ => ⟨S4x50000x12, .i32⟩
  | .hbm, ⟨18, _⟩ => ⟨S4x50000x12x1, .i32⟩
  | .hbm, ⟨19, _⟩ => ⟨S4x50000x12, .f32⟩
  | .hbm, ⟨20, _⟩ => ⟨S4x50000x1, .f32⟩
  | .hbm, ⟨21, _⟩ => ⟨S4x50000, .f32⟩
  | .hbm, ⟨22, _⟩ => ⟨S4x50000x1, .f32⟩
  | .hbm, ⟨23, _⟩ => ⟨S4x50000x12, .f32⟩
  | .hbm, ⟨24, _⟩ => ⟨S4x50000x12, .f32⟩
  | .hbm, ⟨25, _⟩ => ⟨S4x50000x12, .f32⟩
  | .hbm, ⟨26, _⟩ => ⟨S4x50000x12, .f32⟩
  | .hbm, ⟨27, _⟩ => ⟨S4x100000x1, .f32⟩
  | .hbm, ⟨28, _⟩ => ⟨S4x100000, .f32⟩
  | .hbm, ⟨29, _⟩ => ⟨S_, .i32⟩
  | .hbm, ⟨30, _⟩ => ⟨S4x50000x12, .i32⟩
  | .hbm, ⟨31, _⟩ => ⟨S4x50000x12, .i1⟩
  | .hbm, ⟨32, _⟩ => ⟨S_, .i32⟩
  | .hbm, ⟨33, _⟩ => ⟨S4x50000x12, .i32⟩
  | .hbm, ⟨34, _⟩ => ⟨S4x50000x12, .i32⟩
  | .hbm, ⟨35, _⟩ => ⟨S4x50000x12, .i32⟩
  | .hbm, ⟨36, _⟩ => ⟨S4x50000x12x1, .i32⟩
  | .hbm, ⟨37, _⟩ => ⟨S4x50000x12, .f32⟩
  | .hbm, ⟨38, _⟩ => ⟨S4x50000x1, .f32⟩
  | .hbm, ⟨39, _⟩ => ⟨S4x50000, .f32⟩
  | .hbm, ⟨40, _⟩ => ⟨S4x50000x1, .f32⟩
  | .hbm, ⟨41, _⟩ => ⟨S4x50000x12, .f32⟩
  | .hbm, ⟨42, _⟩ => ⟨S4x50000x12, .f32⟩
  | .hbm, ⟨43, _⟩ => ⟨S4x50000x12, .f32⟩
  | .hbm, ⟨44, _⟩ => ⟨S4x50000x12, .f32⟩
  | .hbm, ⟨45, _⟩ => ⟨S4x100000x1, .f32⟩
  | .hbm, ⟨46, _⟩ => ⟨S4x100000, .f32⟩
  | .hbm, ⟨47, _⟩ => ⟨S_, .i32⟩
  | .hbm, ⟨48, _⟩ => ⟨S4x50000x12, .i32⟩
  | .hbm, ⟨49, _⟩ => ⟨S4x50000x12, .i1⟩
  | .hbm, ⟨50, _⟩ => ⟨S_, .i32⟩
  | .hbm, ⟨51, _⟩ => ⟨S4x50000x12, .i32⟩
  | .hbm, ⟨52, _⟩ => ⟨S4x50000x12, .i32⟩
  | .hbm, ⟨53, _⟩ => ⟨S4x50000x12, .i32⟩
  | .hbm, ⟨54, _⟩ => ⟨S4x50000x12x1, .i32⟩
  | .hbm, ⟨55, _⟩ => ⟨S4x50000x12, .f32⟩
  | .hbm, ⟨56, _⟩ => ⟨S4x50000x1, .f32⟩
  | .hbm, ⟨57, _⟩ => ⟨S4x50000, .f32⟩
  | .hbm, ⟨58, _⟩ => ⟨S4x50000x1, .f32⟩
  | .hbm, ⟨59, _⟩ => ⟨S4x50000x12, .f32⟩
  | .hbm, ⟨60, _⟩ => ⟨S4x50000x12, .f32⟩
  | .hbm, ⟨61, _⟩ => ⟨S4x50000x12, .f32⟩
  | .hbm, ⟨62, _⟩ => ⟨S4x50000x12, .f32⟩
  | .hbm, ⟨63, _⟩ => ⟨S_, .i32⟩
  | .hbm, ⟨64, _⟩ => ⟨S_, .f32⟩
  | .hbm, ⟨65, _⟩ => ⟨S4x50176x12, .f32⟩
  | .hbm, ⟨66, _⟩ => ⟨S4x12x50176, .f32⟩
  | .hbm, ⟨67, _⟩ => ⟨S4x12x50176, .f32⟩
  | .hbm, ⟨68, _⟩ => ⟨S4x50176x12, .f32⟩
  | .hbm, ⟨69, _⟩ => ⟨S4x50000x12, .f32⟩
  | .local _ .vmem, ⟨0, _⟩ => ⟨S1x12x25088, .f32⟩
  | .local _ .vmem, ⟨1, _⟩ => ⟨S1x12x25088, .f32⟩
  | .local _ .vmem, ⟨2, _⟩ => ⟨S1x12x25088, .f32⟩
  | .local _ .vmem, ⟨3, _⟩ => ⟨S1x12x25088, .f32⟩
  | _, _ => ⟨S4x100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_5 : Ref sig .tc := ⟨.hbm, 63, rfl⟩
abbrev main_call0_v0 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x12x25088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12x25088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S4x50000x12 : S_.BroadcastsInDim S4x50000x12 (![] : Fin 0 → Fin S4x50000x12.rank)
  slices_S4x100000x3_S4x100000x1_0_0_0 : S4x100000x3.Slices ![0, 0, 0] S4x100000x1
  shapeCasts_S4x100000x1_S4x100000 : S4x100000x1.ShapeCasts S4x100000
  bcast_S4x50000x12_S4x50000x12x1_0_1_2 : S4x50000x12.BroadcastsInDim S4x50000x12x1 (![0, 1, 2] : Fin 3 → Fin S4x50000x12x1.rank)
  slices_S4x50000x3_S4x50000x1_0_0_0 : S4x50000x3.Slices ![0, 0, 0] S4x50000x1
  shapeCasts_S4x50000x1_S4x50000 : S4x50000x1.ShapeCasts S4x50000
  bcast_S4x50000_S4x50000x1_0_1 : S4x50000.BroadcastsInDim S4x50000x1 (![0, 1] : Fin 2 → Fin S4x50000x1.rank)
  bcast_S4x50000x1_S4x50000x12_0_1_2 : S4x50000x1.BroadcastsInDim S4x50000x12 (![0, 1, 2] : Fin 3 → Fin S4x50000x12.rank)
  slices_S4x100000x3_S4x100000x1_0_0_1 : S4x100000x3.Slices ![0, 0, 1] S4x100000x1
  slices_S4x50000x3_S4x50000x1_0_0_1 : S4x50000x3.Slices ![0, 0, 1] S4x50000x1
  slices_S4x100000x3_S4x100000x1_0_0_2 : S4x100000x3.Slices ![0, 0, 2] S4x100000x1
  slices_S4x50000x3_S4x50000x1_0_0_2 : S4x50000x3.Slices ![0, 0, 2] S4x50000x1
  pads_S4x50000x12_S4x50176x12_000_01760_000 : S4x50000x12.Pads (![0, 0, 0] : Fin 3 → Nat) ![0, 176, 0] ![0, 0, 0] S4x50176x12
  h_S_ : 0 < S_.numel
  transposes_S4x50176x12_S4x12x50176_0_2_1 : S4x50176x12.Transposes [0, 2, 1] S4x12x50176
  inb_S1x12x25088_S1x12x25088_0_0_0 : ∀ a, (![0, 0, 0] : Fin 3 → Nat) a + S1x12x25088.size a ≤ S1x12x25088.size a
  h_S1x12x25088 : 0 < S1x12x25088.numel
  shapeCasts_S1x12x25088_S12x25088 : S1x12x25088.ShapeCasts S12x25088
  reduces_S12x25088_S25088 : S12x25088.Reduces [0] S25088
  shapeCasts_S25088_S1x25088 : S25088.ShapeCasts S1x25088
  broadcasts_S1x25088_S12x25088 : S1x25088.Broadcasts S12x25088
  iota_S12x25088_d0_w32 : S12x25088.Iotas .tc 32 [0]
  shapeCasts_S12x25088_S1x12x25088 : S12x25088.ShapeCasts S1x12x25088
  transposes_S4x12x50176_S4x50176x12_0_2_1 : S4x12x50176.Transposes [0, 2, 1] S4x50176x12
  slices_S4x50176x12_S4x50000x12_0_0_0 : S4x50176x12.Slices ![0, 0, 0] S4x50000x12
  gather_S4x100000_S4x50000x12x1_S4x50000x12_n_1_0_0_1_3_11_wf : GatherDims.WF S4x100000 S4x50000x12x1 S4x50000x12 [] [1] [0] [1] [0] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x25088.size a ≤ S4x12x50176.size a
  hwx0_0 : ∀ i : grid0.Coords, EltTy.bits .f32 = 32 ∨ (Rect.block (s := S4x12x50176) S1x12x25088.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12x25088.size a ≤ S4x12x50176.size a
  hwx0_1 : ∀ i : grid0.Coords, EltTy.bits .f32 = 32 ∨ (Rect.block (s := S4x12x50176) S1x12x25088.size (cc0_transform_1 i) (hinb0_1 i)).WholeWords (EltTy.packing .f32)

variable [Facts₀]

def gather_S4x100000_S4x50000x12x1_S4x50000x12_n_1_0_0_1_3_11 : GatherDims S4x100000 S4x50000x12x1 S4x50000x12 where
  offsetDims := []
  collapsedSliceDims := [1]
  operandBatchingDims := [0]
  startIndicesBatchingDims := [0]
  startIndexMap := [1]
  indexVectorDim := 3
  sliceSizes := ![1, 1]
  wf := gather_S4x100000_S4x50000x12x1_S4x50000x12_n_1_0_0_1_3_11_wf

abbrev win0_0 : Pipeline.Window sig grid0 :=
  Pipeline.Window.ofSpec (Memref.whole main_v50) S1x12x25088.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S1x12x25088.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x100000x32 : Shape := ⟨3, ![4, 100000, 32]⟩
abbrev S4x100000x3 : Shape := ⟨3, ![4, 100000, 3]⟩
abbrev S4x50000x3 : Shape := ⟨3, ![4, 50000, 3]⟩
abbrev S4x100000 : Shape := ⟨2, ![4, 100000]⟩
abbrev S4x50000x12 : Shape := ⟨3, ![4, 50000, 12]⟩
abbrev S32x64 : Shape := ⟨2, ![32, 64]⟩
abbrev S64 : Shape := ⟨1, ![64]⟩
abbrev S4x100000x64 : Shape := ⟨3, ![4, 100000, 64]⟩
abbrev S1x1x64 : Shape := ⟨3, ![1, 1, 64]⟩
abbrev S4x100000x1 : Shape := ⟨3, ![4, 100000, 1]⟩
abbrev S_ : Shape := ⟨0, ![]⟩
abbrev S4x50000x12x1 : Shape := ⟨4, ![4, 50000, 12, 1]⟩
abbrev S4x50000x12x64 : Shape := ⟨4, ![4, 50000, 12, 64]⟩
abbrev S4x50000x12x3 : Shape := ⟨4, ![4, 50000, 12, 3]⟩
abbrev S4x50000x1x3 : Shape := ⟨4, ![4, 50000, 1, 3]⟩
abbrev S4x50000 : Shape := ⟨2, ![4, 50000]⟩
abbrev S4x50000x1 : Shape := ⟨3, ![4, 50000, 1]⟩
abbrev S1 : Shape := ⟨1, ![1]⟩

abbrev nBuf : Space → Nat
  | .hbm => 83
  | .vmem => 0
  | .smem => 0
  | _ => 0

abbrev bufTy : (tb : Table) → Fin (tcTables nBuf tb) → BufTy
  | .hbm, ⟨0, _⟩ => ⟨S4x100000x32, .f32⟩
  | .hbm, ⟨1, _⟩ => ⟨S4x100000x3, .f32⟩
  | .hbm, ⟨2, _⟩ => ⟨S4x50000x3, .f32⟩
  | .hbm, ⟨3, _⟩ => ⟨S4x100000, .f32⟩
  | .hbm, ⟨4, _⟩ => ⟨S4x50000x12, .i32⟩
  | .hbm, ⟨5, _⟩ => ⟨S32x64, .f32⟩
  | .hbm, ⟨6, _⟩ => ⟨S64, .f32⟩
  | .hbm, ⟨7, _⟩ => ⟨S4x100000x64, .f32⟩
  | .hbm, ⟨8, _⟩ => ⟨S1x1x64, .f32⟩
  | .hbm, ⟨9, _⟩ => ⟨S4x100000x64, .f32⟩
  | .hbm, ⟨10, _⟩ => ⟨S4x100000x64, .f32⟩
  | .hbm, ⟨11, _⟩ => ⟨S4x100000x1, .f32⟩
  | .hbm, ⟨12, _⟩ => ⟨S4x100000x1, .f32⟩
  | .hbm, ⟨13, _⟩ => ⟨S_, .f32⟩
  | .hbm, ⟨14, _⟩ => ⟨S4x100000x1, .f32⟩
  | .hbm, ⟨15, _⟩ => ⟨S4x100000x1, .f32⟩
  | .hbm, ⟨16, _⟩ => ⟨S_, .f32⟩
  | .hbm, ⟨17, _⟩ => ⟨S4x100000x1, .f32⟩
  | .hbm, ⟨18, _⟩ => ⟨S4x100000x1, .f32⟩
  | .hbm, ⟨19, _⟩ => ⟨S_, .i32⟩
  | .hbm, ⟨20, _⟩ => ⟨S4x50000x12, .i32⟩
  | .hbm, ⟨21, _⟩ => ⟨S4x50000x12, .i1⟩
  | .hbm, ⟨22, _⟩ => ⟨S_, .i32⟩
  | .hbm, ⟨23, _⟩ => ⟨S4x50000x12, .i32⟩
  | .hbm, ⟨24, _⟩ => ⟨S4x50000x12, .i32⟩
  | .hbm, ⟨25, _⟩ => ⟨S4x50000x12, .i32⟩
  | .hbm, ⟨26, _⟩ => ⟨S4x50000x12x1, .i32⟩
  | .hbm, ⟨27, _⟩ => ⟨S4x50000x12x64, .f32⟩
  | .hbm, ⟨28, _⟩ => ⟨S_, .i32⟩
  | .hbm, ⟨29, _⟩ => ⟨S4x50000x12, .i32⟩
  | .hbm, ⟨30, _⟩ => ⟨S4x50000x12, .i1⟩
  | .hbm, ⟨31, _⟩ => ⟨S_, .i32⟩
  | .hbm, ⟨32, _⟩ => ⟨S4x50000x12, .i32⟩
  | .hbm, ⟨33, _⟩ => ⟨S4x50000x12, .i32⟩
  | .hbm, ⟨34, _⟩ => ⟨S4x50000x12, .i32⟩
  | .hbm, ⟨35, _⟩ => ⟨S4x50000x12x1, .i32⟩
  | .hbm, ⟨36, _⟩ => ⟨S4x50000x12x1, .f32⟩
  | .hbm, ⟨37, _⟩ => ⟨S4x50000x12, .f32⟩
  | .hbm, ⟨38, _⟩ => ⟨S_, .i32⟩
  | .hbm, ⟨39, _⟩ => ⟨S4x50000x12, .i32⟩
  | .hbm, ⟨40, _⟩ => ⟨S4x50000x12, .i1⟩
  | .hbm, ⟨41, _⟩ => ⟨S_, .i32⟩
  | .hbm, ⟨42, _⟩ => ⟨S4x50000x12, .i32⟩
  | .hbm, ⟨43, _⟩ => ⟨S4x50000x12, .i32⟩
  | .hbm, ⟨44, _⟩ => ⟨S4x50000x12, .i32⟩
  | .hbm, ⟨45, _⟩ => ⟨S4x50000x12x1, .i32⟩
  | .hbm, ⟨46, _⟩ => ⟨S4x50000x12x3, .f32⟩
  | .hbm, ⟨47, _⟩ => ⟨S4x50000x1x3, .f32⟩
  | .hbm, ⟨48, _⟩ => ⟨S4x50000x12x3, .f32⟩
  | .hbm, ⟨49, _⟩ => ⟨S4x50000x12x3, .f32⟩
  | .hbm, ⟨50, _⟩ => ⟨S4x50000x12x3, .f32⟩
  | .hbm, ⟨51, _⟩ => ⟨S_, .f32⟩
  | .hbm, ⟨52, _⟩ => ⟨S4x50000x12, .f32⟩
  | .hbm, ⟨53, _⟩ => ⟨S4x50000x12, .f32⟩
  | .hbm, ⟨54, _⟩ => ⟨S4x50000x12, .f32⟩
  | .hbm, ⟨55, _⟩ => ⟨S_, .f32⟩
  | .hbm, ⟨56, _⟩ => ⟨S4x50000x12, .f32⟩
  | .hbm, ⟨57, _⟩ => ⟨S4x50000x12, .f32⟩
  | .hbm, ⟨58, _⟩ => ⟨S_, .f32⟩
  | .hbm, ⟨59, _⟩ => ⟨S4x50000, .f32⟩
  | .hbm, ⟨60, _⟩ => ⟨S_, .f32⟩
  | .hbm, ⟨61, _⟩ => ⟨S4x50000, .f32⟩
  | .hbm, ⟨62, _⟩ => ⟨S4x50000, .f32⟩
  | .hbm, ⟨63, _⟩ => ⟨S4x50000x1, .f32⟩
  | .hbm, ⟨64, _⟩ => ⟨S4x50000x12, .f32⟩
  | .hbm, ⟨65, _⟩ => ⟨S4x50000x12, .f32⟩
  | .hbm, ⟨66, _⟩ => ⟨S4x50000x12, .f32⟩
  | .hbm, ⟨67, _⟩ => ⟨S_, .f32⟩
  | .hbm, ⟨68, _⟩ => ⟨S4x50000, .f32⟩
  | .hbm, ⟨69, _⟩ => ⟨S4x50000x1, .f32⟩
  | .hbm, ⟨70, _⟩ => ⟨S4x50000x12, .f32⟩
  | .hbm, ⟨71, _⟩ => ⟨S4x50000x12, .f32⟩
  | .hbm, ⟨72, _⟩ => ⟨S_, .f32⟩
  | .hbm, ⟨73, _⟩ => ⟨S4x50000x12, .f32⟩
  | .hbm, ⟨74, _⟩ => ⟨S4x50000x12, .f32⟩
  | .hbm, ⟨75, _⟩ => ⟨S_, .f32⟩
  | .hbm, ⟨76, _⟩ => ⟨S4x50000x12, .f32⟩
  | .hbm, ⟨77, _⟩ => ⟨S_, .i32⟩
  | .hbm, ⟨78, _⟩ => ⟨S1, .i32⟩
  | .hbm, ⟨79, _⟩ => ⟨S_, .f32⟩
  | .hbm, ⟨80, _⟩ => ⟨S4x50000, .f32⟩
  | .hbm, ⟨81, _⟩ => ⟨S4x50000x12, .f32⟩
  | .hbm, ⟨82, _⟩ => ⟨S4x50000x12, .f32⟩
  | _, _ => ⟨S4x100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x100000x64_0_1_2 : S1x1x64.BroadcastsInDim S4x100000x64 (![0, 1, 2] : Fin 3 → Fin S4x100000x64.rank)
  shapeCasts_S4x100000_S4x100000x1 : S4x100000.ShapeCasts S4x100000x1
  bcast_S_S4x100000x1 : S_.BroadcastsInDim S4x100000x1 (![] : Fin 0 → Fin S4x100000x1.rank)
  bcast_S_S4x50000x12 : S_.BroadcastsInDim S4x50000x12 (![] : Fin 0 → Fin S4x50000x12.rank)
  bcast_S4x50000x12_S4x50000x12x1_0_1_2 : S4x50000x12.BroadcastsInDim S4x50000x12x1 (![0, 1, 2] : Fin 3 → Fin S4x50000x12x1.rank)
  shapeCasts_S4x50000x12x1_S4x50000x12 : S4x50000x12x1.ShapeCasts S4x50000x12
  bcast_S4x50000x3_S4x50000x1x3_0_1_3 : S4x50000x3.BroadcastsInDim S4x50000x1x3 (![0, 1, 3] : Fin 3 → Fin S4x50000x1x3.rank)
  bcast_S4x50000x1x3_S4x50000x12x3_0_1_2_3 : S4x50000x1x3.BroadcastsInDim S4x50000x12x3 (![0, 1, 2, 3] : Fin 4 → Fin S4x50000x12x3.rank)
  reducesTo_S4x50000x12x3_S4x50000x12_d3 : S4x50000x12x3.ReducesTo [3] S4x50000x12
  h_S_ : 0 < S_.numel
  reducesTo_S4x50000x12_S4x50000_d2 : S4x50000x12.ReducesTo [2] S4x50000
  bcast_S_S4x50000 : S_.BroadcastsInDim S4x50000 (![] : Fin 0 → Fin S4x50000.rank)
  bcast_S4x50000_S4x50000x1_0_1 : S4x50000.BroadcastsInDim S4x50000x1 (![0, 1] : Fin 2 → Fin S4x50000x1.rank)
  bcast_S4x50000x1_S4x50000x12_0_1_2 : S4x50000x1.BroadcastsInDim S4x50000x12 (![0, 1, 2] : Fin 3 → Fin S4x50000x12.rank)
  bcast_S_S1 : S_.BroadcastsInDim S1 (![] : Fin 0 → Fin S1.rank)
  dot_S4x100000x32_S32x64_S4x100000x64_2_0_01_1_n_n_wf : DotDims.WF S4x100000x32 S32x64 S4x100000x64 [2] [0] [0, 1] [1] [] []
  gather_S4x100000x64_S4x50000x12x1_S4x50000x12x64_3_1_0_0_1_3_1164_wf : GatherDims.WF S4x100000x64 S4x50000x12x1 S4x50000x12x64 [3] [1] [0] [1] [0] 3 ![1, 1, 64]
  gather_S4x100000x1_S4x50000x12x1_S4x50000x12x1_3_1_0_0_1_3_111_wf : GatherDims.WF S4x100000x1 S4x50000x12x1 S4x50000x12x1 [3] [1] [0] [1] [0] 3 ![1, 1, 1]
  gather_S4x100000x3_S4x50000x12x1_S4x50000x12x3_3_1_0_0_1_3_113_wf : GatherDims.WF S4x100000x3 S4x50000x12x1 S4x50000x12x3 [3] [1] [0] [1] [0] 3 ![1, 1, 3]
  scatter_S4x50000x12_S1_S4x50000_01_2_2_0_wf : ScatterDims.WF S4x50000x12 S1 S4x50000 [0, 1] [2] [2] 0

variable [Facts₀]

def dot_S4x100000x32_S32x64_S4x100000x64_2_0_01_1_n_n : DotDims S4x100000x32 S32x64 S4x100000x64 where
  lhsContracting := [2]
  rhsContracting := [0]
  lhsNonContracting := [0, 1]
  rhsNonContracting := [1]
  lhsBatch := []
  rhsBatch := []
  wf := dot_S4x100000x32_S32x64_S4x100000x64_2_0_01_1_n_n_wf
def gather_S4x100000x64_S4x50000x12x1_S4x50000x12x64_3_1_0_0_1_3_1164 : GatherDims S4x100000x64 S4x50000x12x1 S4x50000x12x64 where
  offsetDims := [3]
  collapsedSliceDims := [1]
  operandBatchingDims := [0]
  startIndicesBatchingDims := [0]
  startIndexMap := [1]
  indexVectorDim := 3
  sliceSizes := ![1, 1, 64]
  wf := gather_S4x100000x64_S4x50000x12x1_S4x50000x12x64_3_1_0_0_1_3_1164_wf
def gather_S4x100000x1_S4x50000x12x1_S4x50000x12x1_3_1_0_0_1_3_111 : GatherDims S4x100000x1 S4x50000x12x1 S4x50000x12x1 where
  offsetDims := [3]
  collapsedSliceDims := [1]
  operandBatchingDims := [0]
  startIndicesBatchingDims := [0]
  startIndexMap := [1]
  indexVectorDim := 3
  sliceSizes := ![1, 1, 1]
  wf := gather_S4x100000x1_S4x50000x12x1_S4x50000x12x1_3_1_0_0_1_3_111_wf
def gather_S4x100000x3_S4x50000x12x1_S4x50000x12x3_3_1_0_0_1_3_113 : GatherDims S4x100000x3 S4x50000x12x1 S4x50000x12x3 where
  offsetDims := [3]
  collapsedSliceDims := [1]
  operandBatchingDims := [0]
  startIndicesBatchingDims := [0]
  startIndexMap := [1]
  indexVectorDim := 3
  sliceSizes := ![1, 1, 3]
  wf := gather_S4x100000x3_S4x50000x12x1_S4x50000x12x3_3_1_0_0_1_3_113_wf
def scatter_S4x50000x12_S1_S4x50000_01_2_2_0 : ScatterDims S4x50000x12 S1 S4x50000 where
  updateWindowDims := [0, 1]
  insertedWindowDims := [2]
  scatterDimsToOperandDims := [2]
  indexVectorDim := 0
  wf := scatter_S4x50000x12_S1_S4x50000_01_2_2_0_wf

class Facts : Prop extends Facts₀ where

variable [Facts]
-- ==== Proof.Spec.lean ====
/-
  The weight every neighbour of a query point gets, as one function of the argument arrays over the extended reals.

  For batch `b`, query point `p` and neighbour slot `k` (twelve slots), the start index `J (b, p, k, 0)`, read as a
  signed integer and clamped into the table's rows `[0, 99999]`, names a row of the point table `X`. The squared
  distance is the sum over the three coordinates of the squared difference between that row and the query point,
  accumulated from zero, left to right. The logit of a slot is the distance (the square root) times −200; the weight is
  half of the softmax of the twelve logits, taken with the largest logit subtracted before the exponential, plus one half
  on slot 0 and zero on the others.
-/
import Idealize.ShloMosaic.PureOps.Ideal
import Idealize.ShloMosaic.Lib.ValueIdx

noncomputable section

open scoped BigOperators

namespace KnnWeight

open Idealize.ShloMosaic Idealize.ShloMosaic.ValueIdx

/-- One half, as its binary pattern. -/
abbrev half : EReal := Ideal.ofBits .f32 0x3F000000#32
/-- Minus two hundred, as its binary pattern. -/
abbrev negScale : EReal := Ideal.ofBits .f32 0xC3480000#32
/-- Zero, as its binary pattern. -/
abbrev zero : EReal := Ideal.ofBits .f32 0x00000000#32

/-- The logit of a slot: its distance (the square root of the squared distance) times −200. -/
def logit (d : Fin 12 → EReal) (k : Fin 12) : EReal := Ideal.sqrt (d k) * negScale

/-- The exponential of a slot's logit less the largest of the twelve logits. -/
def expo (d : Fin 12 → EReal) (k : Fin 12) : EReal :=
  Ideal.exp (logit d k - (Finset.univ : Finset (Fin 12)).sup fun k' => logit d k')

/-- The weight of slot `k` from the twelve squared distances of its query point: half the softmax of the logits, plus
    one half on slot 0. -/
def weight (d : Fin 12 → EReal) (k : Fin 12) : EReal :=
  Ideal.div (expo d k) (∑ k' : Fin 12, expo d k') * half + (if k.val = 0 then half else zero)

/-- The table row neighbour slot `(b, p, k)` names: its start index read signed and clamped into `[0, 99999]`. -/
def row (J : (⟨4, ![4, 50000, 12, 1]⟩ : Shape).Idx → BitVec 32) (b : Fin 4) (p : Fin 50000) (k : Fin 12) : Fin 100000 :=
  ⟨min (J (ix4 b p k (0 : Fin 1))).toInt.toNat 99999, by omega⟩

/-- The difference, on coordinate `c`, between the neighbour's table row and the query point. -/
def diff (X : (⟨3, ![4, 100000, 3]⟩ : Shape).Idx → EReal) (Q : (⟨3, ![4, 50000, 3]⟩ : Shape).Idx → EReal)
    (J : (⟨4, ![4, 50000, 12, 1]⟩ : Shape).Idx → BitVec 32) (b : Fin 4) (p : Fin 50000) (k : Fin 12) (c : Fin 3) : EReal :=
  X (ix3 b (row J b p k) c) - Q (ix3 b p c)

/-- The squared distance between neighbour slot `(b, p, k)`'s table row and query point `(b, p)`, accumulated from zero
    over the three coordinates in order. -/
def sqdist (X : (⟨3, ![4, 100000, 3]⟩ : Shape).Idx → EReal) (Q : (⟨3, ![4, 50000, 3]⟩ : Shape).Idx → EReal)
    (J : (⟨4, ![4, 50000, 12, 1]⟩ : Shape).Idx → BitVec 32) (b : Fin 4) (p : Fin 50000) (k : Fin 12) : EReal :=
  zero + diff X Q J b p k 0 * diff X Q J b p k 0 + diff X Q J b p k 1 * diff X Q J b p k 1
    + diff X Q J b p k 2 * diff X Q J b p k 2

/-- The result at `(b, p, k)`: the weight of slot `k` among the twelve neighbours of query point `(b, p)`. -/
def at3 (X : (⟨3, ![4, 100000, 3]⟩ : Shape).Idx → EReal) (Q : (⟨3, ![4, 50000, 3]⟩ : Shape).Idx → EReal)
    (J : (⟨4, ![4, 50000, 12, 1]⟩ : Shape).Idx → BitVec 32) (b : Fin 4) (p : Fin 50000) (k : Fin 12) : EReal :=
  weight (fun k' => sqdist X Q J b p k') k

/-- The whole result array. -/
def result (X : (⟨3, ![4, 100000, 3]⟩ : Shape).Idx → EReal) (Q : (⟨3, ![4, 50000, 3]⟩ : Shape).Idx → EReal)
    (J : (⟨4, ![4, 50000, 12, 1]⟩ : Shape).Idx → BitVec 32) : (⟨3, ![4, 50000, 12]⟩ : Shape).Idx → EReal :=
  fun i => at3 X Q J (i 0) (i 1) (i 2)

theorem result_ix3 (X : (⟨3, ![4, 100000, 3]⟩ : Shape).Idx → EReal) (Q : (⟨3, ![4, 50000, 3]⟩ : Shape).Idx → EReal)
    (J : (⟨4, ![4, 50000, 12, 1]⟩ : Shape).Idx → BitVec 32) (b : Fin 4) (p : Fin 50000) (k : Fin 12) :
    result X Q J (ix3 b p k) = at3 X Q J b p k := rfl

end KnnWeight

end
-- ==== Proof.LibGatherRows.lean ====
/-
  A BATCHED GATHER OF SINGLE ROWS, READ AT AN INDEX.

  The operand has a leading batch axis of extent `A` and a row axis of extent `N` (and, in rank 3, a trailing axis of
  extent `C` carried whole).  The start indices have shape `[A, P, K, 1]`: for each batch `b` and each position `(p, k)`
  one scalar row number.  The gather pairs the operand's axis 0 with the start indices' axis 0 (a batching axis),
  collapses the row axis (slice size 1, the one axis the start index names), and in rank 3 keeps the last axis as an
  offset axis of full extent.

  Read at a result index, the gather is the operand at batch `b`, at the row `idx[b, p, k, 0]` read as a signed integer
  and clamped into `[0, N − 1]` (the clamp that makes a slice of size 1 fit), and in rank 3 at the column `c`.
  Per operand axis the operand index is (clamped start) + (batching coordinate) + (offset coordinate); on each axis
  exactly one of the three is nonzero.
-/
import Idealize.ShloMosaic.Lib.ValueIdx

noncomputable section

namespace GatherRows

open Idealize.ShloMosaic Idealize.ShloMosaic.ValueIdx

variable {α : Type}

/-! ## Rank 2: operand `[A, N]`, result `[A, P, K]` -/

/-- The dimension numbers of a batched gather of single entries: operand `[A, N]`, start indices `[A, P, K, 1]`,
    result `[A, P, K]`; axis 0 is a batching axis on both sides, axis 1 is collapsed and named by the start index. -/
abbrev rows2Dims (A N P K : Nat)
    (wf : GatherDims.WF ⟨2, ![A, N]⟩ ⟨4, ![A, P, K, 1]⟩ ⟨3, ![A, P, K]⟩ [] [1] [0] [1] [0] 3 ![1, 1]) :
    GatherDims ⟨2, ![A, N]⟩ ⟨4, ![A, P, K, 1]⟩ ⟨3, ![A, P, K]⟩ where
  offsetDims := []
  collapsedSliceDims := [1]
  operandBatchingDims := [0]
  startIndicesBatchingDims := [0]
  startIndexMap := [1]
  indexVectorDim := 3
  sliceSizes := ![1, 1]
  wf := wf

/-- The gather read at `(b, p, k)`: the operand at batch `b` and at the row `idx[b, p, k, 0]`, read signed and clamped
    into `[0, N − 1]`. -/
theorem gather_rows2_apply {A N P K w : Nat} (hN : 0 < N)
    (wf : GatherDims.WF ⟨2, ![A, N]⟩ ⟨4, ![A, P, K, 1]⟩ ⟨3, ![A, P, K]⟩ [] [1] [0] [1] [0] 3 ![1, 1])
    (x : (⟨2, ![A, N]⟩ : Shape).Idx → α) (idx : IVec ⟨4, ![A, P, K, 1]⟩ w) (b : Fin A) (p : Fin P) (k : Fin K) :
    Host.gather (rows2Dims A N P K wf) x idx (ix3 b p k)
      = x (ix2 b (⟨min (idx (ix4 b p k (0 : Fin 1))).toInt.toNat (N - 1), by omega⟩ : Fin N)) := by
  unfold Host.gather
  congr 1
  funext a
  refine Fin.ext ?_
  match a with
  | ⟨0, _⟩ =>
    -- the batching axis: no start, no offset, the batching coordinate is the result's `b`
    show (rows2Dims A N P K wf).start (ix3 b p k) idx 0 + (rows2Dims A N P K wf).batchCoord (ix3 b p k) 0
        + (rows2Dims A N P K wf).offCoord (ix3 b p k) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rows2Dims A N P K wf).operandBatchingDims from List.mem_singleton.mpr rfl)]
    rfl
  | ⟨1, _⟩ =>
    -- the collapsed axis: the clamped start index, no batching coordinate, no offset
    show (rows2Dims A N P K wf).start (ix3 b p k) idx 1 + (rows2Dims A N P K wf).batchCoord (ix3 b p k) 1
        + (rows2Dims A N P K wf).offCoord (ix3 b p k) 1 = _
    rw [GatherDims.batchCoord_eq_zero _ _ _ (show (1 : Fin 2) ∉ ([0] : List (Fin 2)) from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rows2Dims A N P K wf).startIndexMap from List.mem_singleton.mpr rfl)]
    have hsi : (rows2Dims A N P K wf).siIdx (ix3 b p k) ⟨List.idxOf (1 : Fin 2) (rows2Dims A N P K wf).startIndexMap,
        List.idxOf_lt_length_iff.2 (List.mem_singleton.mpr rfl)⟩ = ix4 b p k (0 : Fin 1) := by
      funext e; refine Fin.ext ?_
      match e with
      | ⟨0, _⟩ => rfl
      | ⟨1, _⟩ => rfl
      | ⟨2, _⟩ => rfl
      | ⟨3, _⟩ => rfl
    rw [hsi]
    rfl

/-! ## Rank 3: operand `[A, N, C]`, result `[A, P, K, C]` -/

/-- The dimension numbers of a batched gather of whole rows: operand `[A, N, C]`, start indices `[A, P, K, 1]`,
    result `[A, P, K, C]`; axis 0 is a batching axis on both sides, axis 1 is collapsed and named by the start index,
    axis 2 is carried whole as the result's offset axis 3. -/
abbrev rows3Dims (A N C P K : Nat)
    (wf : GatherDims.WF ⟨3, ![A, N, C]⟩ ⟨4, ![A, P, K, 1]⟩ ⟨4, ![A, P, K, C]⟩ [3] [1] [0] [1] [0] 3 ![1, 1, C]) :
    GatherDims ⟨3, ![A, N, C]⟩ ⟨4, ![A, P, K, 1]⟩ ⟨4, ![A, P, K, C]⟩ where
  offsetDims := [3]
  collapsedSliceDims := [1]
  operandBatchingDims := [0]
  startIndicesBatchingDims := [0]
  startIndexMap := [1]
  indexVectorDim := 3
  sliceSizes := ![1, 1, C]
  wf := wf

/-- The gather read at `(b, p, k, c)`: the operand at batch `b`, at the row `idx[b, p, k, 0]` read signed and clamped
    into `[0, N − 1]`, and at column `c`. -/
theorem gather_rows3_apply {A N C P K w : Nat} (hN : 0 < N)
    (wf : GatherDims.WF ⟨3, ![A, N, C]⟩ ⟨4, ![A, P, K, 1]⟩ ⟨4, ![A, P, K, C]⟩ [3] [1] [0] [1] [0] 3 ![1, 1, C])
    (x : (⟨3, ![A, N, C]⟩ : Shape).Idx → α) (idx : IVec ⟨4, ![A, P, K, 1]⟩ w)
    (b : Fin A) (p : Fin P) (k : Fin K) (c : Fin C) :
    Host.gather (rows3Dims A N C P K wf) x idx (ix4 b p k c)
      = x (ix3 b (⟨min (idx (ix4 b p k (0 : Fin 1))).toInt.toNat (N - 1), by omega⟩ : Fin N) c) := by
  unfold Host.gather
  congr 1
  funext a
  refine Fin.ext ?_
  match a with
  | ⟨0, _⟩ =>
    -- the batching axis: no start, no offset, the batching coordinate is the result's `b`
    show (rows3Dims A N C P K wf).start (ix4 b p k c) idx 0 + (rows3Dims A N C P K wf).batchCoord (ix4 b p k c) 0
        + (rows3Dims A N C P K wf).offCoord (ix4 b p k c) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (rows3Dims A N C P K wf).operandBatchingDims from List.mem_singleton.mpr rfl)]
    rfl
  | ⟨1, _⟩ =>
    -- the collapsed axis: the clamped start index, no batching coordinate, no offset
    show (rows3Dims A N C P K wf).start (ix4 b p k c) idx 1 + (rows3Dims A N C P K wf).batchCoord (ix4 b p k c) 1
        + (rows3Dims A N C P K wf).offCoord (ix4 b p k c) 1 = _
    rw [GatherDims.batchCoord_eq_zero _ _ _ (show (1 : Fin 3) ∉ ([0] : List (Fin 3)) from by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rows3Dims A N C P K wf).startIndexMap from List.mem_singleton.mpr rfl)]
    have hsi : (rows3Dims A N C P K wf).siIdx (ix4 b p k c)
        ⟨List.idxOf (1 : Fin 3) (rows3Dims A N C P K wf).startIndexMap,
          List.idxOf_lt_length_iff.2 (List.mem_singleton.mpr rfl)⟩ = ix4 b p k (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    -- the offset axis: start 0 (the start index does not name it), no batching coordinate, the offset is the result's `c`
    show (rows3Dims A N C P K wf).start (ix4 b p k c) idx 2 + (rows3Dims A N C P K wf).batchCoord (ix4 b p k c) 2
        + (rows3Dims A N C P K wf).offCoord (ix4 b p k c) 2 = _
    rw [GatherDims.batchCoord_eq_zero _ _ _ (show (2 : Fin 3) ∉ ([0] : List (Fin 3)) from by decide)]
    have hst : (rows3Dims A N C P K wf).start (ix4 b p k c) idx 2 = 0 := by
      unfold GatherDims.start
      rw [dif_neg (show (2 : Fin 3) ∉ (rows3Dims A N C P K wf).startIndexMap from
        (show (2 : Fin 3) ∉ ([1] : List (Fin 3)) from by decide))]
    rw [hst]
    simp only [Nat.zero_add, Nat.add_zero]
    unfold GatherDims.offCoord
    rw [dif_pos (show (2 : Fin 3) ∈ (rows3Dims A N C P K wf).sKept from
      (GatherDims.mem_sKept _ _).mpr ⟨(show (2 : Fin 3) ∉ ([1] : List (Fin 3)) from by decide),
        (show (2 : Fin 3) ∉ ([0] : List (Fin 3)) from by decide)⟩)]
    rfl

end GatherRows

end
-- ==== Proof.Entry.lean ====
/-
  The array of squared distances the kernel's grid finds, as one function of the argument arrays, and its entries.

  Before the grid runs, the host computes for every batch `b`, query point `p` and neighbour slot `k` the squared
  distance between the table row the slot names and the query point: for each of the three coordinates `c` it takes
  column `c` of the point table (a [4, 100000] array), gathers from it at the slot's start index (read signed, clamped
  into the rows), subtracts column `c` of the query points spread over the twelve slots, squares, and adds the three
  squares to zero one after the other. That [4, 50000, 12] array is padded with 176 more query points holding the value
  zero and its last two axes are exchanged, giving the [4, 12, 50176] array the grid reads: its entry (b, k, p), for
  p < 50000, is the squared distance of slot (b, p, k).
-/
import proofs.«128598_j36876589203657_2_alg».proof.Proof.Gen.KernelIdeal.Frame
import proofs.«128598_j36876589203657_2_alg».proof.Proof.Spec
import proofs.«128598_j36876589203657_2_alg».proof.Proof.LibGatherRows
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Idealize.ShloMosaic.StableHlo

/-- The start indices as the gathers read them: a negative index is moved up by the number of rows, and the array gets
    a last axis of length one. -/
def starts (x4 : IVec S4x50000x12 32) : IVec S4x50000x12x1 32 :=
  broadcastInDim S4x50000x12x1 ![0, 1, 2] bcast_S4x50000x12_S4x50000x12x1_0_1_2
    (select (cmpi CmpIPredicate.slt x4 (broadcastInDim S4x50000x12 ![] bcast_S_S4x50000x12 (constantI S_ 32 0#32)))
      (addi x4 (broadcastInDim S4x50000x12 ![] bcast_S_S4x50000x12 (constantI S_ 32 100000#32))) x4)

/-- Column `off 2` of the point table, as a [4, 100000] array. -/
def tableCol (off : Fin S4x100000x3.rank → Nat) (h : S4x100000x3.Slices off S4x100000x1) (x1 : FVec Ideal S4x100000x3 .f32) :
    FVec Ideal S4x100000 .f32 :=
  fun i => shapeCast S4x100000 (extractStridedSlice S4x100000x1 off x1 h) shapeCasts_S4x100000x1_S4x100000 i

/-- Column `off 2` of the query points, spread over the twelve slots. -/
def queryCol (off : Fin S4x50000x3.rank → Nat) (h : S4x50000x3.Slices off S4x50000x1) (x2 : FVec Ideal S4x50000x3 .f32) :
    FVec Ideal S4x50000x12 .f32 :=
  broadcastInDim S4x50000x12 ![0, 1, 2] bcast_S4x50000x1_S4x50000x12_0_1_2
    (broadcastInDim S4x50000x1 ![0, 1] bcast_S4x50000_S4x50000x1_0_1 fun i =>
      shapeCast S4x50000 (extractStridedSlice S4x50000x1 off x2 h) shapeCasts_S4x50000x1_S4x50000 i)

/-- One coordinate's squared difference between the gathered table rows and the query points. -/
def sq (off1 : Fin S4x100000x3.rank → Nat) (h1 : S4x100000x3.Slices off1 S4x100000x1)
    (off2 : Fin S4x50000x3.rank → Nat) (h2 : S4x50000x3.Slices off2 S4x50000x1)
    (x1 : FVec Ideal S4x100000x3 .f32) (x2 : FVec Ideal S4x50000x3 .f32) (x4 : IVec S4x50000x12 32) : FVec Ideal S4x50000x12 .f32 :=
  mulf
    (subf (Host.gather gather_S4x100000_S4x50000x12x1_S4x50000x12_n_1_0_0_1_3_11 (tableCol off1 h1 x1) (starts x4)) (queryCol off2 h2 x2))
    (subf (Host.gather gather_S4x100000_S4x50000x12x1_S4x50000x12_n_1_0_0_1_3_11 (tableCol off1 h1 x1) (starts x4)) (queryCol off2 h2 x2))

/-- The squared distances, [4, 50000, 12]: the three squares added to zero in order. -/
def dist2 (x1 : FVec Ideal S4x100000x3 .f32) (x2 : FVec Ideal S4x50000x3 .f32) (x4 : IVec S4x50000x12 32) : FVec Ideal S4x50000x12 .f32 :=
  addf
    (addf
      (addf (broadcastInDim S4x50000x12 ![] bcast_S_S4x50000x12 (constant (F := Ideal) S_ .f32 0x00000000#32))
        (sq ![0, 0, 0] slices_S4x100000x3_S4x100000x1_0_0_0 ![0, 0, 0] slices_S4x50000x3_S4x50000x1_0_0_0 x1 x2 x4))
      (sq ![0, 0, 1] slices_S4x100000x3_S4x100000x1_0_0_1 ![0, 0, 1] slices_S4x50000x3_S4x50000x1_0_0_1 x1 x2 x4))
    (sq ![0, 0, 2] slices_S4x100000x3_S4x100000x1_0_0_2 ![0, 0, 2] slices_S4x50000x3_S4x50000x1_0_0_2 x1 x2 x4)

/-- The array the grid reads, [4, 12, 50176]: the squared distances padded along the query axis and with slots and
    query points exchanged. -/
def entry (x1 : FVec Ideal S4x100000x3 .f32) (x2 : FVec Ideal S4x50000x3 .f32) (x4 : IVec S4x50000x12 32) : FVec Ideal S4x12x50176 .f32 :=
  transpose S4x12x50176 [0, 2, 1]
    (pad S4x50176x12 ![0, 0, 0] ![0, 176, 0] ![0, 0, 0] (dist2 x1 x2 x4)
      (sitofp (F := Ideal) .f32 (constantI S_ 32 0#32)) pads_S4x50000x12_S4x50176x12_000_01760_000 h_S_)
    transposes_S4x50176x12_S4x12x50176_0_2_1

/-! ## The entries -/

/-- Column `c` of the table at (b, r) is the table's entry (b, r, c). -/
theorem tableCol_apply (c : Fin 3) (h : S4x100000x3.Slices ![0, 0, c.val] S4x100000x1) (x1 : FVec Ideal S4x100000x3 .f32)
    (b : Fin 4) (r : Fin 100000) : tableCol ![0, 0, c.val] h x1 (ix2 b r) = x1 (ix3 b r c) := by
  unfold tableCol
  refine (shapeCast_apply _ shapeCasts_S4x100000x1_S4x100000 (ix2 b r) (ix3 b r (0 : Fin 1)) ?_).trans ?_
  · rw [Shape.rowMajor_val_three, Shape.rowMajor_val_two]
    show (b.val * 100000 + r.val) * 1 + 0 = b.val * 100000 + r.val
    omega
  · exact extractStridedSlice_apply _ x1 h (ix3 b r (0 : Fin 1)) (ix3 b r c) (fun a => match a with
      | ⟨0, _⟩ => by show b.val = 0 + b.val; omega
      | ⟨1, _⟩ => by show r.val = 0 + r.val; omega
      | ⟨2, _⟩ => by show c.val = c.val + 0; omega)

/-- Column `c` of the query points, spread over the slots, at (b, p, k) is the query point's entry (b, p, c). -/
theorem queryCol_apply (c : Fin 3) (h : S4x50000x3.Slices ![0, 0, c.val] S4x50000x1) (x2 : FVec Ideal S4x50000x3 .f32)
    (b : Fin 4) (p : Fin 50000) (k : Fin 12) : queryCol ![0, 0, c.val] h x2 (ix3 b p k) = x2 (ix3 b p c) := by
  unfold queryCol
  refine (broadcastInDim_apply _ bcast_S4x50000x1_S4x50000x12_0_1_2 _ (ix3 b p k) (ix3 b p (0 : Fin 1)) (fun a => match a with
      | ⟨0, _⟩ => by show b.val = if (4 : Nat) = 1 then 0 else b.val; rw [if_neg (by decide)]
      | ⟨1, _⟩ => by show p.val = if (50000 : Nat) = 1 then 0 else p.val; rw [if_neg (by decide)]
      | ⟨2, _⟩ => by show 0 = if (1 : Nat) = 1 then 0 else k.val; rw [if_pos rfl])).trans ?_
  refine (broadcastInDim_apply _ bcast_S4x50000_S4x50000x1_0_1 _ (ix3 b p (0 : Fin 1)) (ix2 b p) (fun a => match a with
      | ⟨0, _⟩ => by show b.val = if (4 : Nat) = 1 then 0 else b.val; rw [if_neg (by decide)]
      | ⟨1, _⟩ => by show p.val = if (50000 : Nat) = 1 then 0 else p.val; rw [if_neg (by decide)])).trans ?_
  refine (shapeCast_apply _ shapeCasts_S4x50000x1_S4x50000 (ix2 b p) (ix3 b p (0 : Fin 1)) ?_).trans ?_
  · rw [Shape.rowMajor_val_three, Shape.rowMajor_val_two]
    show (b.val * 50000 + p.val) * 1 + 0 = b.val * 50000 + p.val
    omega
  · exact extractStridedSlice_apply _ x2 h (ix3 b p (0 : Fin 1)) (ix3 b p c) (fun a => match a with
      | ⟨0, _⟩ => by show b.val = 0 + b.val; omega
      | ⟨1, _⟩ => by show p.val = 0 + p.val; omega
      | ⟨2, _⟩ => by show c.val = c.val + 0; omega)

/-- One coordinate's square at (b, p, k) is the specification's difference on that coordinate, squared. -/
theorem sq_apply (c : Fin 3) (h1 : S4x100000x3.Slices ![0, 0, c.val] S4x100000x1) (h2 : S4x50000x3.Slices ![0, 0, c.val] S4x50000x1)
    (x1 : FVec Ideal S4x100000x3 .f32) (x2 : FVec Ideal S4x50000x3 .f32) (x4 : IVec S4x50000x12 32)
    (b : Fin 4) (p : Fin 50000) (k : Fin 12) :
    sq ![0, 0, c.val] h1 ![0, 0, c.val] h2 x1 x2 x4 (ix3 b p k)
      = KnnWeight.diff x1 x2 (starts x4) b p k c * KnnWeight.diff x1 x2 (starts x4) b p k c := by
  have hd : subf (Host.gather gather_S4x100000_S4x50000x12x1_S4x50000x12_n_1_0_0_1_3_11 (tableCol ![0, 0, c.val] h1 x1) (starts x4))
      (queryCol ![0, 0, c.val] h2 x2) (ix3 b p k) = KnnWeight.diff x1 x2 (starts x4) b p k c := by
    rw [subf_apply, queryCol_apply]
    have hg := GatherRows.gather_rows2_apply (A := 4) (N := 100000) (P := 50000) (K := 12) (by decide)
      gather_S4x100000_S4x50000x12x1_S4x50000x12_n_1_0_0_1_3_11_wf (tableCol ![0, 0, c.val] h1 x1) (starts x4) b p k
    rw [show Host.gather gather_S4x100000_S4x50000x12x1_S4x50000x12_n_1_0_0_1_3_11 (tableCol ![0, 0, c.val] h1 x1) (starts x4) (ix3 b p k)
        = tableCol ![0, 0, c.val] h1 x1 (ix2 b (KnnWeight.row (starts x4) b p k)) from hg, tableCol_apply]
    rfl
  unfold sq
  rw [mulf_apply, hd]

/-- The squared distance at (b, p, k) is the specification's. -/
theorem dist2_apply (x1 : FVec Ideal S4x100000x3 .f32) (x2 : FVec Ideal S4x50000x3 .f32) (x4 : IVec S4x50000x12 32)
    (b : Fin 4) (p : Fin 50000) (k : Fin 12) :
    dist2 x1 x2 x4 (ix3 b p k) = KnnWeight.sqdist x1 x2 (starts x4) b p k := by
  have e0 : sq ![0, 0, 0] slices_S4x100000x3_S4x100000x1_0_0_0 ![0, 0, 0] slices_S4x50000x3_S4x50000x1_0_0_0 x1 x2 x4 (ix3 b p k)
      = KnnWeight.diff x1 x2 (starts x4) b p k 0 * KnnWeight.diff x1 x2 (starts x4) b p k 0 :=
    sq_apply (0 : Fin 3) slices_S4x100000x3_S4x100000x1_0_0_0 slices_S4x50000x3_S4x50000x1_0_0_0 x1 x2 x4 b p k
  have e1 : sq ![0, 0, 1] slices_S4x100000x3_S4x100000x1_0_0_1 ![0, 0, 1] slices_S4x50000x3_S4x50000x1_0_0_1 x1 x2 x4 (ix3 b p k)
      = KnnWeight.diff x1 x2 (starts x4) b p k 1 * KnnWeight.diff x1 x2 (starts x4) b p k 1 :=
    sq_apply (1 : Fin 3) slices_S4x100000x3_S4x100000x1_0_0_1 slices_S4x50000x3_S4x50000x1_0_0_1 x1 x2 x4 b p k
  have e2 : sq ![0, 0, 2] slices_S4x100000x3_S4x100000x1_0_0_2 ![0, 0, 2] slices_S4x50000x3_S4x50000x1_0_0_2 x1 x2 x4 (ix3 b p k)
      = KnnWeight.diff x1 x2 (starts x4) b p k 2 * KnnWeight.diff x1 x2 (starts x4) b p k 2 :=
    sq_apply (2 : Fin 3) slices_S4x100000x3_S4x100000x1_0_0_2 slices_S4x50000x3_S4x50000x1_0_0_2 x1 x2 x4 b p k
  have ez : broadcastInDim S4x50000x12 ![] bcast_S_S4x50000x12 (constant (F := Ideal) S_ .f32 0x00000000#32) (ix3 b p k) = KnnWeight.zero :=
    broadcastInDim_apply _ bcast_S_S4x50000x12 _ (ix3 b p k) ix0 (fun a => a.elim0)
  unfold dist2
  rw [addf_apply, addf_apply, addf_apply, e0, e1, e2, ez]
  rfl

/-- Padding the query axis with further points leaves the first 50000 query points as they were. -/
theorem pad_query_apply (x : FVec Ideal S4x50000x12 .f32) (v : S_.Idx → EReal) (b : Fin 4) (p : Fin 50000) (k : Fin 12)
    (pp : Fin 50176) (hpp : pp.val = p.val) :
    pad S4x50176x12 ![0, 0, 0] ![0, 176, 0] ![0, 0, 0] x v pads_S4x50000x12_S4x50176x12_000_01760_000 h_S_ (ix3 b pp k) = x (ix3 b p k) := by
  unfold pad
  have hb := b.isLt
  have hp := p.isLt
  have hk := k.isLt
  rw [dif_pos (fun a => match a with
    | ⟨0, _⟩ => by
        show 0 ≤ b.val ∧ (b.val - 0) % (0 + 1) = 0 ∧ (b.val - 0) / (0 + 1) < 4
        omega
    | ⟨1, _⟩ => by
        show 0 ≤ pp.val ∧ (pp.val - 0) % (0 + 1) = 0 ∧ (pp.val - 0) / (0 + 1) < 50000
        omega
    | ⟨2, _⟩ => by
        show 0 ≤ k.val ∧ (k.val - 0) % (0 + 1) = 0 ∧ (k.val - 0) / (0 + 1) < 12
        omega)]
  refine congrArg x (funext fun a => Fin.ext ?_)
  match a with
  | ⟨0, _⟩ => show (b.val - 0) / (0 + 1) = b.val; omega
  | ⟨1, _⟩ => show (pp.val - 0) / (0 + 1) = p.val; omega
  | ⟨2, _⟩ => show (k.val - 0) / (0 + 1) = k.val; omega

/-- THE ENTRY ARRAY AT AN INDEX: at (b, k, p) with p < 50000 it holds the specification's squared distance of slot (b, p, k). -/
theorem entry_apply (x1 : FVec Ideal S4x100000x3 .f32) (x2 : FVec Ideal S4x50000x3 .f32) (x4 : IVec S4x50000x12 32)
    (b : Fin 4) (p : Fin 50000) (k : Fin 12) (pp : Fin 50176) (hpp : pp.val = p.val) :
    entry x1 x2 x4 (ix3 b k pp) = KnnWeight.sqdist x1 x2 (starts x4) b p k := by
  unfold entry
  refine (transpose_apply [0, 2, 1] _ transposes_S4x50176x12_S4x12x50176_0_2_1 (ix3 b k pp) (ix3 b pp k) (fun a => match a with
    | ⟨0, _⟩ => rfl
    | ⟨1, _⟩ => rfl
    | ⟨2, _⟩ => rfl)).trans ?_
  rw [pad_query_apply _ _ b p k pp hpp]
  exact dist2_apply x1 x2 x4 b p k

/-! ## The region finds this array -/

/-- The array the grid's input window stages is the entry array of the arguments as launched. -/
theorem V_entry (m : (ℓ : Loc nD τ sig) → Buf (Elt Ideal) ℓ) (c : Dev nD) :
    (V m c main_v50 : S4x12x50176.Idx → EReal)
      = entry (m ((c : Thread nD τ).loc main_arg1)) (m ((c : Thread nD τ).loc main_arg2)) (m ((c : Thread nD τ).loc main_arg4)) := by
  dsimp only [Gen.V, Gen.V0]
  simp only [Gen.hostOps0, Gen.hostOps0_1, Gen.hostOps0_2, List.flatten_cons, List.flatten_nil, List.append_nil, List.cons_append, List.nil_append]
  after_results_simp
  rfl

end Cert.KernelIdeal.Entry

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«128598_j36876589203657_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneCols.lean ====
/-
  Two readings of an [a, b] vector over the extended reals, column by column.

  A lane reduction over the FIRST axis gathers, at column `j`, the `a` entries (0, j), …, (a − 1, j).  With an addition
  body from the neutral accumulator it holds their plain sum; with a maximum body from −∞ it holds their supremum (a
  fold of `max` from the bottom element over a finite family is the family's supremum, in any order).  These are the
  column forms beside the row forms (reductions over the last axis).
-/
import Idealize.ShloMosaic.Lib.ValueIdx
import Idealize.ShloMosaic.Lib.Pipeline.Value
import Idealize.ShloMosaic.PureOps.Ideal.Laws
import proofs.«128598_j36876589203657_2_alg».proof.Proof.LibHostMax

noncomputable section

open scoped BigOperators

namespace LaneCols

open Idealize.ShloMosaic Idealize.ShloMosaic.ValueIdx

/-- Column `j` of an [a, b] array with coordinate `k` put back on the reduced (first) axis is (k, j). -/
theorem lift_cols {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- From the neutral accumulator, a lane sum over the first axis of an [a, b] vector, at column `j`, is the sum of the column. -/
theorem multiReduction_add_cols {a b : ℕ} (P : FVec Ideal ⟨2, ![a, b]⟩ .f32) (acc : BitVec FTy.f32.bits)
    (h : (⟨2, ![a, b]⟩ : Shape).Reduces [0] (⟨1, ![b]⟩ : Shape)) (hφ : FKind.Formats .f32)
    (hacc : acc = FKind.add.neutral .f32 hφ) (j : Fin b) :
    multiReduction (F := Ideal) .add [0] (⟨1, ![b]⟩ : Shape) P acc h hφ hacc (ix1 j) = ∑ k : Fin a, P (ix2 k j) := by
  refine (Ideal.multiReduction_add_single (φ := .f32) P acc h hφ hacc (ix1 j)).trans ?_
  have hf : (P ∘ h.lift (ix1 j)) = fun k : Fin a => P (ix2 k j) :=
    funext fun k => congrArg P (lift_cols h j k)
  exact congrArg (fun f => ∑ k : Fin a, f k) hf

/-- From −∞, a lane maximum over the first axis of an [a, b] vector, at column `j`, is the supremum of the column. -/
theorem multiReduction_max_cols {a b : ℕ} (P : FVec Ideal ⟨2, ![a, b]⟩ .f32)
    (h : (⟨2, ![a, b]⟩ : Shape).Reduces [0] (⟨1, ![b]⟩ : Shape)) (hφ : FKind.Formats .f32)
    (hacc : (0xFF800000#32 : BitVec FTy.f32.bits) = FKind.maximumf.neutral .f32 hφ) (j : Fin b) :
    multiReduction (F := Ideal) .maximumf [0] (⟨1, ![b]⟩ : Shape) P 0xFF800000#32 h hφ hacc (ix1 j)
      = (Finset.univ : Finset (Fin a)).sup fun k => P (ix2 k j) := by
  refine (Ideal.multiReduction_maximumf_single (φ := .f32) P 0xFF800000#32 h hφ hacc (ix1 j)).trans ?_
  have hf : (P ∘ h.lift (ix1 j)) = fun k : Fin a => P (ix2 k j) := funext fun k => congrArg P (lift_cols h j k)
  have hb : FloatOps.ofBits (F := Ideal) .f32 0xFF800000#32 = (⊥ : EReal) := HostMax.ofBits_neg_inf
  rw [hb]
  exact congrArg (fun f => Finset.fold max (⊥ : EReal) f (Finset.univ : Finset (Fin a))) hf

end LaneCols

end
-- ==== Proof.BodyValue.lean ====
/-
  The value the kernel body stores, read at an index, is the specification's weight of that column.

  The loaded block is a [1, 12, 25088] array of squared distances: twelve slots on the middle axis, query points on the
  last. Each column (one query point) is treated alone. The logits are the square roots times −200; the largest of a
  column's twelve logits is subtracted before the exponential; the exponentials are divided by their column sum and
  halved; one half is added on slot 0 and zero on the others. Read at (0, k, j) this is the weight of slot k computed from
  the twelve squared distances of column j: the same operations in the same order.

  The two reductions run over the FIRST axis of the [12, 25088] view, keep their result as a [1, 25088] row and
  broadcast it back over the slots, so at (k, j) they hold the supremum, respectively the sum, of column j. The slot-0
  term compares the slot coordinate, as a 32-bit word, with the zero word: a coordinate below twelve is the zero word
  exactly when it is zero.
-/
import proofs.«128598_j36876589203657_2_alg».proof.Proof.Gen.KernelIdeal.Skeleton
import proofs.«128598_j36876589203657_2_alg».proof.Proof.Spec
import proofs.«128598_j36876589203657_2_alg».proof.Proof.LibLaneCols
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.BodyValue

open Idealize.ShloMosaic Idealize.ShloMosaic.ValueIdx Cert.KernelIdeal Cert.KernelIdeal.Gen

/-! ## The non-pointwise operations, each read at (k, j) -/

/-- A column maximum kept as a row and broadcast back over the slots holds, at (k, j), the supremum of column j. -/
theorem maxRow_apply (P : FVec Ideal S12x25088 .f32) (h : S12x25088.Reduces [0] S25088) (hφ : FKind.Formats .f32)
    (hacc : (0xFF800000#32 : BitVec FTy.f32.bits) = FKind.maximumf.neutral .f32 hφ)
    (hc : S25088.ShapeCasts S1x25088) (hb : S1x25088.Broadcasts S12x25088) (k : Fin 12) (j : Fin 25088) :
    broadcastTo S12x25088 (shapeCast S1x25088 (multiReduction (F := Ideal) .maximumf [0] S25088 P 0xFF800000#32 h hφ hacc) hc) hb
        (ix2 k j)
      = (Finset.univ : Finset (Fin 12)).sup fun k' => P (ix2 k' j) := by
  refine (broadcastTo_1b_ab_apply _ hb k j).trans ?_
  refine (shapeCast_a_1a_apply _ hc (0 : Fin 1) j).trans ?_
  exact LaneCols.multiReduction_max_cols P h hφ hacc j

/-- A column sum from the neutral accumulator, kept as a row and broadcast back over the slots, holds at (k, j) the sum
    of column j. -/
theorem sumRow_apply (P : FVec Ideal S12x25088 .f32) (acc : BitVec FTy.f32.bits) (h : S12x25088.Reduces [0] S25088)
    (hφ : FKind.Formats .f32) (hacc : acc = FKind.add.neutral .f32 hφ)
    (hc : S25088.ShapeCasts S1x25088) (hb : S1x25088.Broadcasts S12x25088) (k : Fin 12) (j : Fin 25088) :
    broadcastTo S12x25088 (shapeCast S1x25088 (multiReduction (F := Ideal) .add [0] S25088 P acc h hφ hacc) hc) hb (ix2 k j)
      = ∑ k' : Fin 12, P (ix2 k' j) := by
  refine (broadcastTo_1b_ab_apply _ hb k j).trans ?_
  refine (shapeCast_a_1a_apply _ hc (0 : Fin 1) j).trans ?_
  exact LaneCols.multiReduction_add_cols P acc h hφ hacc j

/-- A slot coordinate, as a 32-bit word, is the zero word exactly when it is zero. -/
theorem slotWord_eq_zero_iff (k : Fin 12) : BitVec.ofNat 32 k.val = 0#32 ↔ k.val = 0 := by
  fin_cases k <;> decide

/-- The slot counter compared with zero selects, at (k, j), the first constant on slot 0 and the second elsewhere. -/
theorem slot0_apply {α : Type} (A B : α) (h : S12x25088.Iotas .tc 32 [0]) (k : Fin 12) (j : Fin 25088) :
    select (cmpi .eq (iota .tc S12x25088 32 [0] h) (broadcast S12x25088 0#32)) (broadcast S12x25088 A) (broadcast S12x25088 B)
        (ix2 k j)
      = if k.val = 0 then A else B := by
  show Scalar.select (IntOp.cmpi .eq (BitVec.ofNat 32 (0 * 12 + k.val)) 0#32) A B = _
  rw [Nat.zero_mul, Nat.zero_add]
  by_cases hk : k.val = 0
  · rw [if_pos hk, show IntOp.cmpi .eq (BitVec.ofNat 32 k.val) 0#32 = 1#1 from by
      rw [(slotWord_eq_zero_iff k).2 hk]; rfl]
    exact select_one A B
  · rw [if_neg hk, show IntOp.cmpi .eq (BitVec.ofNat 32 k.val) 0#32 = 0#1 from by
      have hne : ¬ BitVec.ofNat 32 k.val = 0#32 := fun e => hk ((slotWord_eq_zero_iff k).1 e)
      show BitVec.ofBool (BitVec.ofNat 32 k.val == 0#32) = 0#1
      rw [show (BitVec.ofNat 32 k.val == 0#32) = false from beq_eq_false_iff_ne.2 hne]; rfl]
    exact select_zero A B

/-! ## The body's intermediate vectors, named -/

variable (x0 : Vec Ideal S1x12x25088 .f32)

/-- The logits as a [12, 25088] vector: the square roots of the block, times −200. -/
def logits : FVec Ideal S12x25088 .f32 :=
  mulf (sqrt (shapeCast S12x25088 x0 shapeCasts_S1x12x25088_S12x25088))
    (broadcast S12x25088 (Scalar.ofBits (F := Ideal) .f32 0xC3480000#32))

/-- The column maxima of the logits, broadcast back over the slots. -/
def maxRow : FVec Ideal S12x25088 .f32 :=
  broadcastTo S12x25088
    (shapeCast S1x25088
      (multiReduction (F := Ideal) .maximumf [0] S25088 (logits x0) 0xFF800000#32 reduces_S12x25088_S25088 (.inl rfl) rfl)
      shapeCasts_S25088_S1x25088)
    broadcasts_S1x25088_S12x25088

/-- The exponentials of the logits less their column maximum. -/
def expos : FVec Ideal S12x25088 .f32 := exp (subf (logits x0) (maxRow x0))

/-- The column sums of the exponentials, broadcast back over the slots. -/
def sumRow : FVec Ideal S12x25088 .f32 :=
  broadcastTo S12x25088
    (shapeCast S1x25088
      (multiReduction (F := Ideal) .add [0] S25088 (expos x0) 0x00000000#32 reduces_S12x25088_S25088 (.inl rfl) rfl)
      shapeCasts_S25088_S1x25088)
    broadcasts_S1x25088_S12x25088

/-- One half on slot 0 and zero on the other slots. -/
def slot0 : FVec Ideal S12x25088 .f32 :=
  select (cmpi .eq (iota .tc S12x25088 32 [0] iota_S12x25088_d0_w32) (broadcast S12x25088 0#32))
    (broadcast S12x25088 (Scalar.ofBits (F := Ideal) .f32 0x3F000000#32))
    (broadcast S12x25088 (Scalar.ofBits (F := Ideal) .f32 0x00000000#32))

/-- The stored value is the cast to [1, 12, 25088] of: the exponentials over their column sums, halved, plus the slot-0
    term: the body's operations, in order. -/
theorem pay_eq :
    k0_pay1 (F := Ideal) x0
      = shapeCast S1x12x25088
          (addf (mulf (divf (expos x0) (sumRow x0)) (broadcast S12x25088 (Scalar.ofBits (F := Ideal) .f32 0x3F000000#32)))
            slot0)
          shapeCasts_S12x25088_S1x12x25088 := rfl

/-! ## The named vectors read at (k, j): the specification's terms of column j -/

/-- Column j of the block: the twelve squared distances of query point j. -/
abbrev col (j : Fin 25088) : Fin 12 → EReal := fun k' => x0 (ix3 (0 : Fin 1) k' j)

theorem logits_apply (k : Fin 12) (j : Fin 25088) : logits x0 (ix2 k j) = KnnWeight.logit (col x0 j) k := by
  show Ideal.sqrt (shapeCast S12x25088 x0 shapeCasts_S1x12x25088_S12x25088 (ix2 k j)) * KnnWeight.negScale
    = Ideal.sqrt (x0 (ix3 (0 : Fin 1) k j)) * KnnWeight.negScale
  exact congrArg (fun t => Ideal.sqrt t * KnnWeight.negScale) (shapeCast_1ab_ab_apply x0 _ k j)

theorem maxRow_at (k : Fin 12) (j : Fin 25088) :
    maxRow x0 (ix2 k j) = (Finset.univ : Finset (Fin 12)).sup fun k' => KnnWeight.logit (col x0 j) k' := by
  refine (maxRow_apply (logits x0) _ _ _ _ _ k j).trans ?_
  exact congrArg (fun f => (Finset.univ : Finset (Fin 12)).sup f) (funext fun k' => logits_apply x0 k' j)

theorem expos_apply (k : Fin 12) (j : Fin 25088) : expos x0 (ix2 k j) = KnnWeight.expo (col x0 j) k := by
  show Ideal.exp (logits x0 (ix2 k j) - maxRow x0 (ix2 k j)) = _
  rw [logits_apply, maxRow_at]; rfl

theorem sumRow_at (k : Fin 12) (j : Fin 25088) : sumRow x0 (ix2 k j) = ∑ k' : Fin 12, KnnWeight.expo (col x0 j) k' := by
  refine (sumRow_apply (expos x0) _ _ _ _ _ _ k j).trans ?_
  exact congrArg (fun f => ∑ k' : Fin 12, f k') (funext fun k' => expos_apply x0 k' j)

theorem slot0_at (k : Fin 12) (j : Fin 25088) :
    slot0 (ix2 k j) = if k.val = 0 then KnnWeight.half else KnnWeight.zero :=
  slot0_apply _ _ _ k j

/-! ## The stored value at (0, k, j) -/

/-- The value the body stores, read at (0, k, j), is the weight of slot k from the twelve squared distances of
    column j. -/
theorem pay_apply (x0 : Vec Ideal S1x12x25088 .f32) (k : Fin 12) (j : Fin 25088) :
    k0_pay1 (F := Ideal) x0 (ix3 (0 : Fin 1) k j) = KnnWeight.weight (fun k' : Fin 12 => x0 (ix3 (0 : Fin 1) k' j)) k := by
  refine (congrFun (pay_eq x0) (ix3 (0 : Fin 1) k j)).trans ?_
  refine (shapeCast_ab_1ab_apply _ _ (0 : Fin 1) k j).trans ?_
  refine (addf_apply _ _ (ix2 k j)).trans ?_
  refine congrArg₂ (fun a b : EReal => a + b) ?_ (slot0_at k j)
  refine (mulf_apply _ _ (ix2 k j)).trans ?_
  refine congrArg₂ (fun a b : EReal => a * b) ?_ rfl
  refine (divf_apply _ _ (ix2 k j)).trans ?_
  exact congrArg₂ Ideal.div (expos_apply x0 k j) (sumRow_at x0 k j)

end Cert.KernelIdeal.BodyValue

end
-- ==== Proof.Blocks.lean ====
/-
  From the eight blocks the grid points write back to the whole output array.

  The grid is 4 × 2. The point with coordinates (g0, g1) stages block (g0, 0, g1), of shape [1, 12, 25088], of the
  [4, 12, 50176] array of squared distances, and writes back the same block of the output array: both index maps are
  (g0, 0, g1). An element (0, k, j) of either block sits in its array at (g0 · 1 + 0, 0 · 12 + k, g1 · 25088 + j): on every
  axis the block index times the block's size plus the coordinate inside the block.

  The body turns the staged block into, column by column, the twelve weights of that column's twelve squared distances. A
  column of the block is a column of the array, all twelve slots of it lying in the one block, so what a point writes back
  is its block of the array whose every column has been replaced by its weights. The eight blocks tile the output array
  (4 · 1 = 4, 1 · 12 = 12, 2 · 25088 = 50176), so the array ends as that array.
-/
import proofs.«128598_j36876589203657_2_alg».proof.Proof.Gen.KernelIdeal.Frame
import proofs.«128598_j36876589203657_2_alg».proof.Proof.BodyValue
import proofs.«128598_j36876589203657_2_alg».proof.Proof.Spec
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen

variable (m : (ℓ : Loc nD τ sig) → Buf (Elt Ideal) ℓ)

/-! ## The array every column of which is replaced by its weights -/

/-- Each column of twelve squared distances replaced by its twelve weights. -/
def colWeight (D : FVec Ideal S4x12x50176 .f32) : FVec Ideal S4x12x50176 .f32 :=
  fun i => KnnWeight.weight (fun k' : Fin 12 => D (ix3 (i 0) k' (i 2))) (i 1)

theorem colWeight_ix3 (D : FVec Ideal S4x12x50176 .f32) (b : Fin 4) (k : Fin 12) (j : Fin 50176) :
    colWeight D (ix3 b k j) = KnnWeight.weight (fun k' => D (ix3 b k' j)) k := rfl

/-! ## The index maps, decided over the grid -/

theorem hz : (![0, 0, 0] : Fin 3 → Nat) = fun _ => 0 := funext fun a => by fin_cases a <;> rfl

/-- The two windows move together: at every point the staged block and the block written back have the same block
    index on every axis; it is at most 3 on the batch axis, 0 on the slot axis and at most 1 on the point axis. -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 3
    ∧ win0_1.index t (1 : Fin 3) = 0
    ∧ win0_1.index t (2 : Fin 3) ≤ 1 :=
  (by decide +kernel : ∀ t : Fin grid0.N, _)

/-- Every block of the output array is some point's. -/
theorem idx_onto : ∀ (q0 : Fin 4) (q2 : Fin 2), ∃ t : Fin cfg0.N, win0_1.index t = ![q0.val, 0, q2.val] :=
  (by decide +kernel : ∀ (q0 : Fin 4) (q2 : Fin 2), ∃ t : Fin grid0.N, win0_1.index t = ![q0.val, 0, q2.val])

/-! ## What a point stages and what it writes back -/

/-- An index of a [1, a, b] block is (0, k, j): a statement about every index follows from one about those. -/
theorem forall_idx_1ab {a b : ℕ} {P : (⟨3, ![1, a, b]⟩ : Shape).Idx → Prop}
    (h : ∀ (k : Fin a) (j : Fin b), P (ix3 (0 : Fin 1) k j)) (y : (⟨3, ![1, a, b]⟩ : Shape).Idx) : P y := by
  have hlt : (y 0).val < 1 := (y 0).isLt
  have h0 : (y 0 : Fin 1) = (0 : Fin 1) := Fin.ext (show (y 0).val = 0 by omega)
  have hy : y = ix3 (0 : Fin 1) (y 1) (y 2) :=
    (eq_ix3 y).trans (congrArg (fun u : Fin 1 => ix3 u (y 1 : Fin a) (y 2 : Fin b)) h0)
  rw [hy]; exact h _ _

/-- Element (0, k', j) of the block point t stages is the array's element at any index whose coordinates are the block
    index on the batch axis, k' on the slot axis, and the block index times 25088 plus j on the point axis. -/
theorem iblk_apply (c : Dev nD) (t : Fin cfg0.N) (k' : Fin 12) (j : Fin 25088) (i : S4x12x50176.Idx)
    (h0 : (i 0).val = win0_0.index t (0 : Fin 3)) (h1 : (i 1).val = k'.val)
    (h2 : (i 2).val = win0_0.index t (2 : Fin 3) * 25088 + j.val) :
    (iblk m c 0 t : Vec Ideal S1x12x25088 .f32) (ix3 (0 : Fin 1) k' j) = V m c main_v50 i := by
  show V m c main_v50 (((cfg0.win 0).blk t).view.emb (ix3 (0 : Fin 1) k' j)) = V m c main_v50 i
  refine congrArg (V m c main_v50) ?_
  obtain ⟨e0, e1, e2, e3, e4, e5⟩ := idx_facts t
  funext a; apply Fin.ext
  match a with
  | ⟨0, _⟩ => show win0_0.index t (0 : Fin 3) * 1 + 1 * (0 : Nat) = (i 0).val; omega
  | ⟨1, _⟩ => show win0_0.index t (1 : Fin 3) * 12 + 1 * k'.val = (i 1).val; omega
  | ⟨2, _⟩ => show win0_0.index t (2 : Fin 3) * 25088 + 1 * j.val = (i 2).val; omega

/-- The weight of slot k of column j of the staged block is the weighted array at any index with those coordinates: the
    column of the block is the column of the array. -/
theorem blockWeight_eq (c : Dev nD) (t : Fin cfg0.N) (k : Fin 12) (j : Fin 25088) (i : S4x12x50176.Idx)
    (h0 : (i 0).val = win0_0.index t (0 : Fin 3)) (h1 : (i 1).val = k.val)
    (h2 : (i 2).val = win0_0.index t (2 : Fin 3) * 25088 + j.val) :
    KnnWeight.weight (fun k' : Fin 12 => (iblk m c 0 t : Vec Ideal S1x12x25088 .f32) (ix3 (0 : Fin 1) k' j)) k
      = colWeight (V m c main_v50) i := by
  have hk : k = i 1 := Fin.ext h1.symm
  subst hk
  show _ = KnnWeight.weight (fun k' : Fin 12 => V m c main_v50 (ix3 (i 0) k' (i 2))) (i 1)
  exact congrArg (fun d : Fin 12 → EReal => KnnWeight.weight d (i 1))
    (funext fun k' => iblk_apply m c t k' j (ix3 (i 0) k' (i 2)) h0 rfl h2)

/-- What the body leaves at (0, k, j) of point t's buffer is the weighted array at that element's place. -/
theorem flushed_at (c : Dev nD) (t : Fin cfg0.N) (k : Fin 12) (j : Fin 25088) :
    k0_pay1 (F := Ideal) (iblk m c 0 t) (ix3 (0 : Fin 1) k j)
      = ((cfg0.win 1).blk t).view.read (Elt Ideal) (colWeight (V m c main_v50)) (ix3 (0 : Fin 1) k j) := by
  refine (BodyValue.pay_apply _ k j).trans ?_
  show _ = colWeight (V m c main_v50) (((cfg0.win 1).blk t).view.emb (ix3 (0 : Fin 1) k j))
  obtain ⟨e0, e1, e2, e3, e4, e5⟩ := idx_facts t
  refine blockWeight_eq m c t k j _ ?_ ?_ ?_
  · show win0_1.index t (0 : Fin 3) * 1 + 1 * (0 : Nat) = win0_0.index t (0 : Fin 3); omega
  · show win0_1.index t (1 : Fin 3) * 12 + 1 * k.val = k.val; omega
  · show win0_1.index t (2 : Fin 3) * 25088 + 1 * j.val = win0_0.index t (2 : Fin 3) * 25088 + j.val; omega

/-- What point t writes back is block t of the weighted array. -/
theorem flushed_eq (c : Dev nD) (t : Fin cfg0.N) :
    (dats m 0 c).flushed 1 t = ((cfg0.win 1).blk t).view.read (Elt Ideal) (colWeight (V m c main_v50)) := by
  show (cfg0.win 1).cut (grid0.coords t) ((dats m 0 c).after 1 t) = _
  rw [after0_1]
  unfold out0_1
  rw [View.canon_unit_zero hz]
  simp only [View.ld_unit_zero (S := S1x12x25088) hz]
  funext y
  exact forall_idx_1ab (a := 12) (b := 25088)
    (P := fun y => k0_pay1 (F := Ideal) (iblk m c 0 t) y
      = ((cfg0.win 1).blk t).view.read (Elt Ideal) (colWeight (V m c main_v50)) y)
    (fun k j => flushed_at m c t k j) y

/-! ## The blocks tile the output array -/

/-- An index of the array is in point t's block iff each coordinate is in the block's range on its axis. -/
theorem mem_blk (t : Fin cfg0.N) (i : S4x12x50176.Idx) :
    i ∈ ((cfg0.win 1).blk t).view.set ↔ ∀ a : Fin 3, win0_1.index t a * S1x12x25088.size a ≤ (i a).val ∧ (i a).val < win0_1.index t a * S1x12x25088.size a + S1x12x25088.size a := by
  show i ∈ ((View.whole main_v51).slice (win0_1.rect t)).set ↔ _
  rw [View.set_slice_whole, Rect.mem_set_unit]
  exact Iff.rfl

/-- Every index of the output array is in some point's block: the point whose block index is the batch coordinate, 0,
    and the point coordinate's quotient by 25088. -/
theorem cover (i : S4x12x50176.Idx) :
    ∃ t : Fin cfg0.N, (cfg0.win 1).flush t = true ∧ i ∈ ((cfg0.win 1).blk t).view.set := by
  have hi0 : (i 0).val < 4 := (i 0).isLt
  have hi1 : (i 1).val < 12 := (i 1).isLt
  have hi2 : (i 2).val < 50176 := (i 2).isLt
  obtain ⟨t, ht⟩ := idx_onto ⟨(i 0).val, hi0⟩ ⟨(i 2).val / 25088, by omega⟩
  have q0 : win0_1.index t (0 : Fin 3) = (i 0).val := congrFun ht 0
  have q1 : win0_1.index t (1 : Fin 3) = 0 := congrFun ht 1
  have q2 : win0_1.index t (2 : Fin 3) = (i 2).val / 25088 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 12 ≤ (i 1).val ∧ (i 1).val < win0_1.index t (1 : Fin 3) * 12 + 12; omega
  | ⟨2, _⟩ => show win0_1.index t (2 : Fin 3) * 25088 ≤ (i 2).val ∧ (i 2).val < win0_1.index t (2 : Fin 3) * 25088 + 25088; omega

/-! ## The output array after the run -/

/-- The output array ends as the array of squared distances with every column replaced by its weights. -/
theorem final (c : Dev nD) : (dats m 0 c).arrAt 1 cfg0.N = colWeight (V m c main_v50) :=
  (dats m 0 c).arrAt_eq_of_cover 1 (colWeight (V m c main_v50)) (fun t _ => flushed_eq m c t) cover

end Cert.KernelIdeal.Blocks

end
-- ==== Proof.Tail.lean ====
/-
  After the grid, the host exchanges the last two axes of the grid's [4, 12, 50176] output array back and keeps the first
  50000 query points: entry (b, p, k) of the result is entry (b, k, p) of the grid's output array.
-/
import proofs.«128598_j36876589203657_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Tail

open Idealize.ShloMosaic Idealize.ShloMosaic.TcCoe Idealize.ShloMosaic.ValueIdx Idealize.SL.Sem
open Cert.KernelIdeal Cert.KernelIdeal.Gen Idealize.ShloMosaic.StableHlo
open Idealize.ShloMosaic.Pipeline (Dat)

/-- The two host operations after the grid, applied to the grid's output array. -/
def backAndKeep (A : FVec Ideal S4x12x50176 .f32) : FVec Ideal S4x50000x12 .f32 :=
  extractStridedSlice S4x50000x12 ![0, 0, 0]
    (transpose S4x50176x12 [0, 2, 1] A transposes_S4x12x50176_S4x50176x12_0_2_1) slices_S4x50176x12_S4x50000x12_0_0_0

/-- Entry (b, p, k) of the result is entry (b, k, p) of the grid's output array. -/
theorem backAndKeep_apply (A : FVec Ideal S4x12x50176 .f32) (b : Fin 4) (p : Fin 50000) (k : Fin 12) (pp : Fin 50176)
    (hpp : pp.val = p.val) : backAndKeep A (ix3 b p k) = A (ix3 b k pp) := by
  unfold backAndKeep
  refine (extractStridedSlice_apply _ _ slices_S4x50176x12_S4x50000x12_0_0_0 (ix3 b p k) (ix3 b pp k) (fun a => match a with
    | ⟨0, _⟩ => by show b.val = 0 + b.val; omega
    | ⟨1, _⟩ => by show pp.val = 0 + p.val; omega
    | ⟨2, _⟩ => by show k.val = 0 + k.val; omega)).trans ?_
  exact transpose_apply [0, 2, 1] A transposes_S4x12x50176_S4x50176x12_0_2_1 (ix3 b pp k) (ix3 b k pp) (fun a => match a with
    | ⟨0, _⟩ => rfl
    | ⟨1, _⟩ => rfl
    | ⟨2, _⟩ => rfl)

variable (m : (ℓ : Loc nD τ sig) → Buf (Elt Ideal) ℓ)

/-- What the program's result buffer holds after the host's last two operations: they applied to the grid's output array
    as the grid's run leaves it. -/
theorem tail_eq (c : Dev nD) :
    (Pipeline.afterTail₀ cfgs (dats m) 0 (V0 m) [hostOps1] c main_v53 : S4x50000x12.Idx → EReal)
      = backAndKeep ((dats m 0 c).arrAt 1 cfg0.N) := by
  unfold Pipeline.afterTail₀
  show StableHlo.after hostOps1 _ (Proc.devRef .tc main_v53) = _
  after_results
  unfold backAndKeep
  exact congrArg (fun A : FVec Ideal S4x12x50176 .f32 => extractStridedSlice S4x50000x12 ![0, 0, 0]
      (transpose S4x50176x12 [0, 2, 1] A transposes_S4x12x50176_S4x50176x12_0_2_1) slices_S4x50176x12_S4x50000x12_0_0_0)
    (Pipeline.withArrays_arr spec0 launch0.win.arr_inj c (V0 m c) (fun w => (dats m 0 c).arrAt w cfg0.N) 1)

end Cert.KernelIdeal.Tail

end
-- ==== Proof.KernelRun.lean ====
/-
  The kernel program's run, read: its result buffer ends holding, at (b, p, k), the weight of neighbour slot k of query
  point (b, p) — the specification's function of the point table, the query points and the start indices — and its
  argument arrays end as launched.

  The chain: the host's last two operations read entry (b, k, p) of the grid's output array; the grid leaves that array
  holding, column by column, the twelve weights of the twelve squared distances of the array it read; and entry
  (b, k', p) of that array is the squared distance of slot (b, p, k').
-/
import proofs.«128598_j36876589203657_2_alg».proof.Proof.Gen.KernelIdeal.Frame
import proofs.«128598_j36876589203657_2_alg».proof.Proof.Spec
import proofs.«128598_j36876589203657_2_alg».proof.Proof.Entry
import proofs.«128598_j36876589203657_2_alg».proof.Proof.Blocks
import proofs.«128598_j36876589203657_2_alg».proof.Proof.Tail
import Idealize.ShloMosaic.Lib.Pipeline.Value
import Idealize.ShloMosaic.Lib.ValueIdx

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- What the result buffer holds after the host's last operations is the specification's result array. -/
theorem result_eq (c : Dev nD) :
    (Pipeline.afterTail₀ cfgs (dats m) 0 (V0 m) [hostOps1] c main_v53 : S4x50000x12.Idx → EReal)
      = KnnWeight.result (m ((c.tc : Thread nD τ).loc main_arg1)) (m ((c.tc : Thread nD τ).loc main_arg2))
          (Entry.starts (m ((c.tc : Thread nD τ).loc main_arg4))) := by
  rw [Tail.tail_eq, Blocks.final]
  funext i
  obtain ⟨b, p, k, rfl⟩ : ∃ (b : Fin 4) (p : Fin 50000) (k : Fin 12), i = ix3 b p k := ⟨i 0, i 1, i 2, eq_ix3 i⟩
  have hp := p.isLt
  rw [Tail.backAndKeep_apply _ b p k (⟨p.val, by omega⟩ : Fin 50176) rfl, Blocks.colWeight_ix3, KnnWeight.result_ix3]
  unfold KnnWeight.at3
  refine congrArg (fun d => KnnWeight.weight d k) (funext fun k' => ?_)
  exact (congrFun (Entry.V_entry m c) _).trans (Entry.entry_apply _ _ _ b p k' (⟨p.val, by omega⟩ : Fin 50176) rfl)

/-- THE RUN: every weakly fair execution terminates without a fault, the result buffer at the specification's result
    array of the arguments as launched, the arguments unchanged. -/
theorem run : θ_run defs (onTc (τ := τ) (main (F := Ideal))) ⟨m, fun _ => 0, ρ⟩ (fun r => ∀ c : Dev nD,
      r.2.mem ((c.tc : Thread nD τ).loc main_v53)
        = KnnWeight.result (m ((c.tc : Thread nD τ).loc main_arg1)) (m ((c.tc : Thread nD τ).loc main_arg2))
            (Entry.starts (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v53 (Pipeline.mem_restRefs_of main_v53 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KernelValue

end
-- ==== Proof.RefValue.lean ====
/-
  The reference program's result, read at an index, is the specification.

  At batch `b`, query point `p` and neighbour slot `k` the reference computes, stage by stage: the difference between
  the gathered table row and the query point on each of the three coordinates; the sum of the three squared differences,
  accumulated from zero; its square root; the negated root times 200 (the logit); the largest of the twelve logits of
  the query point (a maximum from −∞, which is the supremum of the twelve); the exponential of the logit less that
  maximum; the sum of the twelve exponentials from zero; the quotient of the two; half of it; plus the scatter's one
  half on slot 0 and zero elsewhere. Each stage is identified with the specification's function of the same name at
  explicit coordinates. Two facts about the constants are used: the pattern of −200 denotes the negative of what the
  pattern of 200 denotes, so `(−s) · 200 = s · (−200)` on every extended real; and the zero pattern denotes 0, the
  pattern of −∞ the bottom element. No finiteness of the inputs is needed. The gather and the scatter read at an index
  are taken as hypotheses.
-/
import proofs.«128598_j36876589203657_2_alg».proof.Proof.Gen.ReferenceIdeal.Read
import proofs.«128598_j36876589203657_2_alg».proof.Proof.Spec
import proofs.«128598_j36876589203657_2_alg».proof.Proof.LibHostMax

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-! ### Index bookkeeping: the index each layout operation reads, at explicit coordinates -/

theorem idx33 (b : Fin 4) (p : Fin 50000) (k : Fin 12) (c : Fin 3) :
    idx_main_v33 (ix4 b p k c) = ix4 b p (0 : Fin 1) c :=
  funext fun a => Fin.ext (by match a with | ⟨0, _⟩ => rfl | ⟨1, _⟩ => rfl | ⟨2, _⟩ => rfl | ⟨3, _⟩ => rfl)

theorem idx32 (b : Fin 4) (p : Fin 50000) (c : Fin 3) :
    idx_main_v32 (ix4 b p (0 : Fin 1) c) = ix3 b p c :=
  funext fun a => Fin.ext (by match a with | ⟨0, _⟩ => rfl | ⟨1, _⟩ => rfl | ⟨2, _⟩ => rfl)

theorem idxc1 (b : Fin 4) (p : Fin 50000) (k : Fin 12) (c : Fin 3) :
    idx_main_call0_v1 (ix3 b p k) c = ix4 b p k c :=
  funext fun a => Fin.ext (by match a with | ⟨0, _⟩ => rfl | ⟨1, _⟩ => rfl | ⟨2, _⟩ => rfl | ⟨3, _⟩ => rfl)

theorem idx43 (b : Fin 4) (p : Fin 50000) (k : Fin 12) :
    idx_main_v43 (ix3 b p k) = ix3 b p (0 : Fin 1) :=
  funext fun a => Fin.ext (by match a with | ⟨0, _⟩ => rfl | ⟨1, _⟩ => rfl | ⟨2, _⟩ => rfl)

theorem idx42 (b : Fin 4) (p : Fin 50000) :
    idx_main_v42 (ix3 b p (0 : Fin 1)) = ix2 b p :=
  funext fun a => Fin.ext (by match a with | ⟨0, _⟩ => rfl | ⟨1, _⟩ => rfl)

theorem idx46 (b : Fin 4) (p : Fin 50000) (k : Fin 12) :
    idx_main_v46 (ix2 b p) k = ix3 b p k :=
  funext fun a => Fin.ext (by match a with | ⟨0, _⟩ => rfl | ⟨1, _⟩ => rfl | ⟨2, _⟩ => rfl)

theorem idx48 (b : Fin 4) (p : Fin 50000) (k : Fin 12) :
    idx_main_v48 (ix3 b p k) = ix3 b p (0 : Fin 1) :=
  funext fun a => Fin.ext (by match a with | ⟨0, _⟩ => rfl | ⟨1, _⟩ => rfl | ⟨2, _⟩ => rfl)

theorem idx47 (b : Fin 4) (p : Fin 50000) :
    idx_main_v47 (ix3 b p (0 : Fin 1)) = ix2 b p :=
  funext fun a => Fin.ext (by match a with | ⟨0, _⟩ => rfl | ⟨1, _⟩ => rfl)

/-! ### The two scale patterns -/

/-- The pattern of 200 denotes the real 200. -/
theorem ofBits_200 : Ideal.ofBits .f32 0x43480000#32 = ((200 : ℝ) : EReal) := by
  simp [Ideal.ofBits, Ideal.ieee, -EReal.coe_mul]; norm_num

/-- The pattern of −200 denotes the real −200. -/
theorem ofBits_neg200 : Ideal.ofBits .f32 0xC3480000#32 = ((-200 : ℝ) : EReal) := by
  simp [Ideal.ofBits, Ideal.ieee, -EReal.coe_mul]; norm_num

/-- The pattern of −200 denotes the negative of what the pattern of 200 denotes. -/
theorem negScale_eq : KnnWeight.negScale = -(Ideal.ofBits .f32 0x43480000#32 : EReal) := by
  show Ideal.ofBits .f32 0xC3480000#32 = -(Ideal.ofBits .f32 0x43480000#32 : EReal)
  rw [ofBits_200, ofBits_neg200, EReal.coe_neg]

/-! ### The stages, bottom-up, at explicit coordinates -/

section Stages

variable (x1 : (⟨S4x100000x3, .f32⟩ : BufTy).Contents (Elt Ideal)) (x2 : (⟨S4x50000x3, .f32⟩ : BufTy).Contents (Elt Ideal))
  (x4 : (⟨S4x50000x12, .i32⟩ : BufTy).Contents (Elt Ideal)) (b : Fin 4) (p : Fin 50000)
  (hg : ∀ (k' : Fin 12) (c : Fin 3), val_main_v31 (F := Ideal) x1 x4 (ix4 b p k' c)
    = x1 (ix3 b (KnnWeight.row (val_main_v30 (F := Ideal) x4) b p k') c))

include hg

/-- The difference array at (b, p, k, c) is the neighbour's table row less the query point, on coordinate c. -/
theorem diff_at (k : Fin 12) (c : Fin 3) :
    val_main_v34 (F := Ideal) x1 x2 x4 (ix4 b p k c) = KnnWeight.diff x1 x2 (val_main_v30 (F := Ideal) x4) b p k c := by
  rw [val_main_v34_apply, hg k c, val_main_v33_apply, idx33, val_main_v32_apply, idx32]
  rfl

/-- The sum of squares at (b, p, k) is the squared distance. -/
theorem sq_at (k : Fin 12) :
    val_main_call0_v1 (F := Ideal) x1 x2 x4 (ix3 b p k) = KnnWeight.sqdist x1 x2 (val_main_v30 (F := Ideal) x4) b p k := by
  rw [val_main_call0_v1_apply, val_main_call0_cst_apply, Fin.sum_univ_three]
  simp only [idxc1, val_main_call0_v0_apply, diff_at x1 x2 x4 b p hg]
  unfold KnnWeight.sqdist
  rw [← add_assoc, ← add_assoc]
  rfl

/-- The logit array at (b, p, k): the square root of the squared distance, times −200. -/
theorem logit_at (k : Fin 12) :
    val_main_v38 (F := Ideal) x1 x2 x4 (ix3 b p k)
      = KnnWeight.logit (fun k' => KnnWeight.sqdist x1 x2 (val_main_v30 (F := Ideal) x4) b p k') k := by
  rw [val_main_v38_apply, val_main_v36_apply, val_main_v35_apply, sq_at x1 x2 x4 b p hg, val_main_v37_apply,
    val_main_cst_6_apply]
  unfold KnnWeight.logit
  rw [negScale_eq, mul_neg]
  exact neg_mul _ _

/-- The running maximum at (b, p): the largest of the twelve logits. -/
theorem max_at :
    val_main_v41 (F := Ideal) x1 x2 x4 (ix2 b p)
      = (Finset.univ : Finset (Fin 12)).sup fun k' =>
          KnnWeight.logit (fun k'' => KnnWeight.sqdist x1 x2 (val_main_v30 (F := Ideal) x4) b p k'') k' := by
  rw [val_main_v41_apply, val_main_v40_apply, val_main_cst_8_apply]
  have hr : val_main_v39 (F := Ideal) x1 x2 x4 (ix2 b p)
      = (Finset.univ : Finset (Fin 12)).sup fun k' => val_main_v38 (F := Ideal) x1 x2 x4 (ix3 b p k') :=
    HostMax.reduce_groups (val_main_v38 (F := Ideal) x1 x2 x4) (val_main_cst_7 (F := Ideal))
      (fun _ => HostMax.ofBits_neg_inf) reducesTo_S4x50000x12_S4x50000_d2 (by decide) h_S_ b p
  rw [hr]
  simp only [logit_at x1 x2 x4 b p hg]
  show max (Ideal.ofBits .f32 0xFF800000#32) _ = _
  rw [HostMax.ofBits_neg_inf]
  exact max_eq_right bot_le

/-- The exponential array at (b, p, k): the exponential of the logit less the largest logit. -/
theorem expo_at (k : Fin 12) :
    val_main_v45 (F := Ideal) x1 x2 x4 (ix3 b p k)
      = KnnWeight.expo (fun k' => KnnWeight.sqdist x1 x2 (val_main_v30 (F := Ideal) x4) b p k') k := by
  rw [val_main_v45_apply, val_main_v44_apply, logit_at x1 x2 x4 b p hg, val_main_v43_apply, idx43, val_main_v42_apply,
    idx42, max_at x1 x2 x4 b p hg]
  rfl

/-- The normalizer at (b, p): the sum of the twelve exponentials. -/
theorem sum_at :
    val_main_v46 (F := Ideal) x1 x2 x4 (ix2 b p)
      = ∑ k' : Fin 12, KnnWeight.expo (fun k'' => KnnWeight.sqdist x1 x2 (val_main_v30 (F := Ideal) x4) b p k'') k' := by
  rw [val_main_v46_apply, val_main_cst_9_apply]
  simp only [idx46, expo_at x1 x2 x4 b p hg]
  show Ideal.ofBits .f32 0x00000000#32 + _ = _
  rw [Ideal.ofBits_zero_f32, zero_add]

end Stages

/-- The reference's result at (b, p, k) is the specification's weight of slot k among the twelve neighbours of query
    point (b, p), given the gather read at an index (hg) and the scatter read at an index (hs). -/
theorem ref_at (x1 : (⟨S4x100000x3, .f32⟩ : BufTy).Contents (Elt Ideal)) (x2 : (⟨S4x50000x3, .f32⟩ : BufTy).Contents (Elt Ideal)) (x4 : (⟨S4x50000x12, .i32⟩ : BufTy).Contents (Elt Ideal)) (b : Fin 4) (p : Fin 50000) (k : Fin 12)
    (hg : ∀ (k' : Fin 12) (c : Fin 3), val_main_v31 (F := Ideal) x1 x4 (ix4 b p k' c) = x1 (ix3 b (KnnWeight.row (val_main_v30 (F := Ideal) x4) b p k') c))
    (hs : val_main_v55 (F := Ideal) (ix3 b p k) = if k.val = 0 then KnnWeight.half else KnnWeight.zero) :
    val_main_v56 (F := Ideal) x1 x2 x4 (ix3 b p k) = KnnWeight.at3 x1 x2 (val_main_v30 (F := Ideal) x4) b p k := by
  rw [val_main_v56_apply, hs, val_main_v51_apply, val_main_v49_apply, expo_at x1 x2 x4 b p hg, val_main_v48_apply, idx48,
    val_main_v47_apply, idx47, sum_at x1 x2 x4 b p hg, val_main_v50_apply, val_main_cst_10_apply]
  rfl

end Cert.ReferenceIdeal.RefValue

end
-- ==== Proof.LibScatterCol.lean ====
/-
  A HOST SCATTER THAT OVERWRITES ONE COLUMN, READ AT AN INDEX.

  Operand `[A, P, K]`, ONE scatter index (a length-1 integer vector) naming a position on the last axis, updates `[A, P]`
  whose two axes are window axes going to operand axes 0 and 1; the last operand axis is an inserted window axis and the
  one the index names. Update `(b', p')` lands at `(b', p', start)`, where `start` is the index read as a signed integer
  and NOT clamped; it is dropped when `start` is outside `[0, K)`. With a body that returns the update, entry `(b, p, k)`
  of the result is `upd (b, p)` when `start = k` and the operand's entry otherwise (`scatter_col_set_apply`).

  The road: the start and window coordinates of the dimension record on each operand axis (`start0` … `window2`), the
  operand index an update lands at (`resultIdx_eq`), a left fold over ANY list of update numbers read at one entry
  (`foldl_apply`), and the scatter as that fold over all update numbers.
-/
import Idealize.ShloMosaic.Lib.ValueIdx
import Idealize.ShloMosaic.PureOps.ShapeOps

namespace ScatterCol

open Idealize.ShloMosaic Idealize.ShloMosaic.ValueIdx

/-- The scatter dimension numbers for an operand `[A, P, K]`, scatter indices `[1]` (one index vector of length 1) and
    updates `[A, P]`: both update axes are window axes, operand axis 2 is inserted and is the axis the index names. Their
    conditions `wf` are decided on a program's literal shapes. -/
abbrev colDims (A P K : Nat) (wf : ScatterDims.WF ⟨3, ![A, P, K]⟩ ⟨1, ![1]⟩ ⟨2, ![A, P]⟩ [0, 1] [2] [2] 0) :
    ScatterDims ⟨3, ![A, P, K]⟩ ⟨1, ![1]⟩ ⟨2, ![A, P]⟩ where
  updateWindowDims := [0, 1]
  insertedWindowDims := [2]
  scatterDimsToOperandDims := [2]
  indexVectorDim := 0
  wf := wf

section Coordinates
variable {A P K w : Nat} (wf : ScatterDims.WF ⟨3, ![A, P, K]⟩ ⟨1, ![1]⟩ ⟨2, ![A, P]⟩ [0, 1] [2] [2] 0)

/-- The operand's axes that are not inserted: 0 and 1. -/
theorem sKept_eq : (colDims A P K wf).sKept = [0, 1] := by
  show (List.finRange 3).filter (fun a : Fin 3 => a ∉ ([2] : List (Fin 3))) = [0, 1]
  decide

/-- Every update reads its start index at the scatter indices' one position. -/
theorem siIdx_eq (j : (⟨2, ![A, P]⟩ : Shape).Idx) (c : Fin (colDims A P K wf).scatterDimsToOperandDims.length) :
    (colDims A P K wf).siIdx j c = ix1 (0 : Fin 1) := by
  funext b; refine Fin.ext ?_
  match b with
  | ⟨0, _⟩ =>
    have h : c.val < 1 := c.isLt
    show c.val = 0
    omega

/-- The window starts at 0 on operand axis 0 … -/
theorem start0 (j : (⟨2, ![A, P]⟩ : Shape).Idx) (idx : IVec ⟨1, ![1]⟩ w) :
    (colDims A P K wf).start j idx 0 = 0 := by
  unfold ScatterDims.start
  rw [dif_neg (show ¬ (0 : Fin 3) ∈ ([2] : List (Fin 3)) by decide)]

/-- … at 0 on operand axis 1 … -/
theorem start1 (j : (⟨2, ![A, P]⟩ : Shape).Idx) (idx : IVec ⟨1, ![1]⟩ w) :
    (colDims A P K wf).start j idx 1 = 0 := by
  unfold ScatterDims.start
  rw [dif_neg (show ¬ (1 : Fin 3) ∈ ([2] : List (Fin 3)) by decide)]

/-- … and at the scatter index, read signed, on operand axis 2. -/
theorem start2 (j : (⟨2, ![A, P]⟩ : Shape).Idx) (idx : IVec ⟨1, ![1]⟩ w) :
    (colDims A P K wf).start j idx 2 = (idx (ix1 (0 : Fin 1))).toInt := by
  unfold ScatterDims.start
  rw [dif_pos (show (2 : Fin 3) ∈ (colDims A P K wf).scatterDimsToOperandDims from List.mem_singleton.mpr rfl)]
  rw [siIdx_eq]

/-- The window coordinate on operand axis 0 is the update's first coordinate … -/
theorem window0 (j : (⟨2, ![A, P]⟩ : Shape).Idx) :
    (colDims A P K wf).window j 0 = (j 0).val := by
  unfold ScatterDims.window
  rw [dif_pos (show (0 : Fin 3) ∈ (colDims A P K wf).sKept by
    rw [sKept_eq]; show (0 : Fin 3) ∈ ([0, 1] : List (Fin 3)); decide)]
  rfl

/-- … on operand axis 1 its second coordinate … -/
theorem window1 (j : (⟨2, ![A, P]⟩ : Shape).Idx) :
    (colDims A P K wf).window j 1 = (j 1).val := by
  unfold ScatterDims.window
  rw [dif_pos (show (1 : Fin 3) ∈ (colDims A P K wf).sKept by
    rw [sKept_eq]; show (1 : Fin 3) ∈ ([0, 1] : List (Fin 3)); decide)]
  rfl

/-- … and 0 on the inserted axis 2. -/
theorem window2 (j : (⟨2, ![A, P]⟩ : Shape).Idx) :
    (colDims A P K wf).window j 2 = 0 := by
  unfold ScatterDims.window
  rw [dif_neg (show ¬ (2 : Fin 3) ∈ (colDims A P K wf).sKept by
    rw [sKept_eq]; show ¬ (2 : Fin 3) ∈ ([0, 1] : List (Fin 3)); decide)]

/-- The scatter index read as a signed integer: where on the last axis the updates land. -/
abbrev stOf (idx : IVec ⟨1, ![1]⟩ w) : Int := (idx (ix1 (0 : Fin 1))).toInt

/-- WHERE AN UPDATE LANDS: update `(b', p')` lands at `(b', p', start)` when `start` is inside `[0, K)`, and is dropped otherwise. -/
theorem resultIdx_eq (idx : IVec ⟨1, ![1]⟩ w) (b' : Fin A) (p' : Fin P) :
    (colDims A P K wf).resultIdx? (ix2 b' p') idx =
      if h : 0 ≤ stOf idx ∧ stOf idx < (K : Int) then some (ix3 b' p' ⟨(stOf idx).toNat, by omega⟩) else none := by
  have s0 := start0 wf (ix2 b' p') idx
  have s1 := start1 wf (ix2 b' p') idx
  have s2 := start2 wf (ix2 b' p') idx
  have w0 := window0 wf (ix2 b' p')
  have w1 := window1 wf (ix2 b' p')
  have w2 := window2 wf (ix2 b' p')
  unfold ScatterDims.resultIdx?
  by_cases h : 0 ≤ stOf idx ∧ stOf idx < (K : Int)
  · rw [dif_pos h]
    have H : ∀ a, 0 ≤ (colDims A P K wf).start (ix2 b' p') idx a + (colDims A P K wf).window (ix2 b' p') a ∧
        (colDims A P K wf).start (ix2 b' p') idx a + (colDims A P K wf).window (ix2 b' p') a < (⟨3, ![A, P, K]⟩ : Shape).size a := by
      intro a
      match a with
      | ⟨0, _⟩ =>
        show 0 ≤ (colDims A P K wf).start (ix2 b' p') idx 0 + (colDims A P K wf).window (ix2 b' p') 0 ∧
          (colDims A P K wf).start (ix2 b' p') idx 0 + (colDims A P K wf).window (ix2 b' p') 0 < (A : Int)
        rw [s0, w0]
        have : (b'.val : Int) < A := by exact_mod_cast b'.isLt
        show 0 ≤ (0 : Int) + (b'.val : Int) ∧ (0 : Int) + (b'.val : Int) < (A : Int)
        omega
      | ⟨1, _⟩ =>
        show 0 ≤ (colDims A P K wf).start (ix2 b' p') idx 1 + (colDims A P K wf).window (ix2 b' p') 1 ∧
          (colDims A P K wf).start (ix2 b' p') idx 1 + (colDims A P K wf).window (ix2 b' p') 1 < (P : Int)
        rw [s1, w1]
        have : (p'.val : Int) < P := by exact_mod_cast p'.isLt
        show 0 ≤ (0 : Int) + (p'.val : Int) ∧ (0 : Int) + (p'.val : Int) < (P : Int)
        omega
      | ⟨2, _⟩ =>
        show 0 ≤ (colDims A P K wf).start (ix2 b' p') idx 2 + (colDims A P K wf).window (ix2 b' p') 2 ∧
          (colDims A P K wf).start (ix2 b' p') idx 2 + (colDims A P K wf).window (ix2 b' p') 2 < (K : Int)
        rw [s2, w2]
        simp only [Nat.cast_zero, add_zero]
        exact h
    rw [dif_pos H]
    congr 1
    funext a
    refine Fin.ext ?_
    match a with
    | ⟨0, _⟩ =>
      show ((colDims A P K wf).start (ix2 b' p') idx 0 + (colDims A P K wf).window (ix2 b' p') 0).toNat = b'.val
      rw [s0, w0]
      show ((0 : Int) + (b'.val : Int)).toNat = b'.val
      omega
    | ⟨1, _⟩ =>
      show ((colDims A P K wf).start (ix2 b' p') idx 1 + (colDims A P K wf).window (ix2 b' p') 1).toNat = p'.val
      rw [s1, w1]
      show ((0 : Int) + (p'.val : Int)).toNat = p'.val
      omega
    | ⟨2, _⟩ =>
      show ((colDims A P K wf).start (ix2 b' p') idx 2 + (colDims A P K wf).window (ix2 b' p') 2).toNat = (stOf idx).toNat
      rw [s2, w2]
      simp only [Nat.cast_zero, add_zero]
  · rw [dif_neg h]
    rw [dif_neg]
    intro H
    apply h
    have H2 := H 2
    rw [s2, w2] at H2
    simpa using H2

/-- A left fold over update numbers, read at `(b, p, k)`, for any step that writes `upd (b, p)` there exactly when the
    start index is `k` and the update number is the row-major position of `(b, p)`, and leaves the entry alone otherwise:
    the entry ends as `upd (b, p)` when the start index is `k` and that position is in the list, and is unchanged otherwise.
    (No distinctness of the list is needed: the value written depends on `(b, p)` only.) -/
theorem foldl_apply {α : Type} (idx : IVec ⟨1, ![1]⟩ w) (upd : (⟨2, ![A, P]⟩ : Shape).Idx → α) (b : Fin A) (p : Fin P) (k : Fin K)
    (step : ((⟨3, ![A, P, K]⟩ : Shape).Idx → α) → Fin (⟨2, ![A, P]⟩ : Shape).numel → ((⟨3, ![A, P, K]⟩ : Shape).Idx → α))
    (hstep : ∀ r n, step r n (ix3 b p k)
      = if stOf idx = (k.val : Int) ∧ n = (⟨2, ![A, P]⟩ : Shape).rowMajor (ix2 b p) then upd (ix2 b p) else r (ix3 b p k))
    (L : List (Fin (⟨2, ![A, P]⟩ : Shape).numel)) (r : (⟨3, ![A, P, K]⟩ : Shape).Idx → α) :
    (L.foldl step r) (ix3 b p k)
      = if stOf idx = (k.val : Int) ∧ (⟨2, ![A, P]⟩ : Shape).rowMajor (ix2 b p) ∈ L then upd (ix2 b p) else r (ix3 b p k) := by
  induction L generalizing r with
  | nil => simp
  | cons n L ih =>
    rw [List.foldl_cons, ih, hstep]
    by_cases hst : stOf idx = (k.val : Int)
    · by_cases hL : (⟨2, ![A, P]⟩ : Shape).rowMajor (ix2 b p) ∈ L
      · rw [if_pos ⟨hst, hL⟩, if_pos ⟨hst, List.mem_cons_of_mem _ hL⟩]
      · rw [if_neg (fun h => hL h.2)]
        by_cases hn : n = (⟨2, ![A, P]⟩ : Shape).rowMajor (ix2 b p)
        · rw [if_pos ⟨hst, hn⟩, if_pos ⟨hst, by rw [hn]; exact List.mem_cons_self ..⟩]
        · rw [if_neg (fun h => hn h.2), if_neg]
          rintro ⟨_, hm⟩
          rcases List.mem_cons.mp hm with h | h
          · exact hn h.symm
          · exact hL h
    · rw [if_neg (fun h => hst h.1), if_neg (fun h => hst h.1), if_neg (fun h => hst h.1)]

end Coordinates

/-- THE SCATTER READ AT `(b, p, k)`: with a body that returns the update, the entry is `upd (b, p)` when the scatter index,
    read signed, is `k`, and the operand's entry otherwise (an index outside `[0, K)` equals no `k`: the update is dropped). -/
theorem scatter_col_set_apply {α : Type} {A P K w : Nat}
    (wf : ScatterDims.WF ⟨3, ![A, P, K]⟩ ⟨1, ![1]⟩ ⟨2, ![A, P]⟩ [0, 1] [2] [2] 0)
    (x : (⟨3, ![A, P, K]⟩ : Shape).Idx → α) (idx : IVec ⟨1, ![1]⟩ w)
    (upd : (⟨2, ![A, P]⟩ : Shape).Idx → α) (b : Fin A) (p : Fin P) (k : Fin K) :
    Host.scatter (colDims A P K wf) (fun _ v => v) x idx upd (ix3 b p k)
      = if (idx (ix1 (0 : Fin 1))).toInt = (k.val : Int) then upd (ix2 b p) else x (ix3 b p k) := by
  unfold Host.scatter
  refine (foldl_apply idx upd b p k _ ?hstep _ x).trans ?_
  case hstep =>
    -- one step of the fold at `(b, p, k)`: update number `n`, at update index `(b', p')`, lands at `(b', p', start)`
    intro r n
    obtain ⟨b', p', hj⟩ : ∃ b' p', (⟨2, ![A, P]⟩ : Shape).rowMajor.symm n = ix2 b' p' := ⟨_, _, eq_ix2 _⟩
    have hn : n = (⟨2, ![A, P]⟩ : Shape).rowMajor (ix2 b' p') := by rw [← hj, Equiv.apply_symm_apply]
    have hk : (k.val : Int) < K := by exact_mod_cast k.isLt
    beta_reduce
    rw [hj, resultIdx_eq wf]
    by_cases h : 0 ≤ stOf idx ∧ stOf idx < (K : Int)
    · rw [dif_pos h]
      dsimp only
      by_cases he : ix3 b p k = ix3 b' p' (⟨(stOf idx).toNat, by omega⟩ : Fin K)
      · rw [if_pos he]
        have e0 : b = b' := congrFun he 0
        have e1 : p = p' := congrFun he 1
        have e2 : k.val = (stOf idx).toNat := congrArg Fin.val (congrFun he 2)
        rw [if_pos ⟨by omega, by rw [hn, e0, e1]⟩, e0, e1]
      · rw [if_neg he, if_neg]
        rintro ⟨hst, hn'⟩
        apply he
        have hj' : ix2 b' p' = ix2 b p := (⟨2, ![A, P]⟩ : Shape).rowMajor.injective (hn.symm.trans hn')
        have e0 : b' = b := congrFun hj' 0
        have e1 : p' = p := congrFun hj' 1
        subst e0 e1
        have : k = (⟨(stOf idx).toNat, by omega⟩ : Fin K) := Fin.ext (by show k.val = (stOf idx).toNat; omega)
        exact congrArg (ix3 b' p') this
    · rw [dif_neg h]
      dsimp only
      rw [if_neg]
      rintro ⟨hst, _⟩
      apply h
      omega
  by_cases hst : stOf idx = (k.val : Int)
  · rw [if_pos ⟨hst, List.mem_finRange _⟩, if_pos hst]
  · rw [if_neg (fun h => hst h.1), if_neg hst]

end ScatterCol
-- ==== Proof.RefResult.lean ====
/-
  The reference program's whole result array is the specification's.

  Every index of the result is (b, p, k) for a batch b, a query point p and a neighbour slot k. At such an index the
  result is the specification's weight once the gather and the scatter are read at an index. The gather of single table
  rows, at (b, p, k, c), is the table at batch b, at the row the slot's start index names (read signed and clamped into
  the table's rows), at coordinate c. The scatter overwrites one column of an all-zero array with one half: its one
  index is 0, so slot 0 holds one half and every other slot keeps zero.
-/
import proofs.«128598_j36876589203657_2_alg».proof.Proof.RefValue
import proofs.«128598_j36876589203657_2_alg».proof.Proof.LibGatherRows
import proofs.«128598_j36876589203657_2_alg».proof.Proof.LibScatterCol

noncomputable section

namespace Cert.ReferenceIdeal.RefValue

open Cert.ReferenceIdeal Cert.ReferenceIdeal.Read Idealize.ShloMosaic Idealize.ShloMosaic.TcCoe Idealize.SL.Sem Idealize.ShloMosaic.StableHlo Idealize.ShloMosaic.ValueIdx

/-- The gather read at (b, p, k, c): the table at batch b, at the row slot (b, p, k) names (its start index read signed
    and clamped into the table's rows), at coordinate c. -/
theorem gather_at (x1 : (⟨S4x100000x3, .f32⟩ : BufTy).Contents (Elt Ideal)) (x4 : (⟨S4x50000x12, .i32⟩ : BufTy).Contents (Elt Ideal))
    (b : Fin 4) (p : Fin 50000) (k : Fin 12) (c : Fin 3) :
    val_main_v31 (F := Ideal) x1 x4 (ix4 b p k c)
      = x1 (ix3 b (KnnWeight.row (val_main_v30 (F := Ideal) x4) b p k) c) :=
  GatherRows.gather_rows3_apply (A := 4) (N := 100000) (C := 3) (P := 50000) (K := 12) (by decide)
    Cert.ReferenceIdeal.Gen.gather_S4x100000x3_S4x50000x12x1_S4x50000x12x3_3_1_0_0_1_3_113_wf
    x1 (val_main_v30 (F := Ideal) x4) b p k c

/-- The scatter read at (b, p, k): its one index is 0, so the update, one half, lands on slot 0 and every other slot
    keeps the operand's zero. -/
theorem scatter_at (b : Fin 4) (p : Fin 50000) (k : Fin 12) :
    val_main_v55 (F := Ideal) (ix3 b p k) = if k.val = 0 then KnnWeight.half else KnnWeight.zero := by
  refine (ScatterCol.scatter_col_set_apply (A := 4) (P := 50000) (K := 12)
    Cert.ReferenceIdeal.Gen.scatter_S4x50000x12_S1_S4x50000_01_2_2_0_wf
    (val_main_v52 (F := Ideal)) (val_main_v53 (F := Ideal)) (val_main_v54 (F := Ideal)) b p k).trans ?_
  rw [val_main_v53_apply, val_main_c_12_apply, val_main_v54_apply, val_main_cst_13_apply, val_main_v52_apply,
    val_main_cst_11_apply]
  have h0 : (0#32 : BitVec 32).toInt = 0 := by decide
  rw [h0]
  by_cases hk : k.val = 0
  · rw [if_pos hk, if_pos (by omega)]
    rfl
  · rw [if_neg hk, if_neg (by omega)]
    rfl

/-- The reference's whole result array is the specification's. -/
theorem ref_result (x1 : (⟨S4x100000x3, .f32⟩ : BufTy).Contents (Elt Ideal)) (x2 : (⟨S4x50000x3, .f32⟩ : BufTy).Contents (Elt Ideal)) (x4 : (⟨S4x50000x12, .i32⟩ : BufTy).Contents (Elt Ideal)) :
    val_main_v56 (F := Ideal) x1 x2 x4 = KnnWeight.result x1 x2 (val_main_v30 (F := Ideal) x4) := by
  funext i
  obtain ⟨b, p, k, rfl⟩ : ∃ (b : Fin 4) (p : Fin 50000) (k : Fin 12), i = ix3 b p k := ⟨_, _, _, eq_ix3 i⟩
  rw [KnnWeight.result_ix3]
  exact ref_at x1 x2 x4 b p k (fun k' c => gather_at x1 x4 b p k' c) (scatter_at b p k)

end Cert.ReferenceIdeal.RefValue

end
-- ==== Proof.lean ====
/-
  The weights a point-cloud layer gives the twelve nearest neighbours of each query point: a tiled kernel against the
  plain array program, over the extended reals.

  Both programs gather, for every batch b, query point p and neighbour slot k, the table row the slot's index names (the
  index read signed, moved up by the number of rows when negative, clamped into the rows), take the distance to the query
  point — the square root of the sum of the three squared coordinate differences —, multiply it by −200, take the softmax of
  the twelve values of a query point (the largest subtracted before the exponential), halve it, and add one half on slot 0.

  The kernel program gathers the three coordinates one at a time on the host and adds their squares to zero in order, pads
  the query axis to two tiles of 25088, exchanges slots and query points so that a grid point holds whole columns of twelve
  slots, computes the weights of each column inside the grid (its maximum and its sum are reductions over the twelve slots
  of the column, all in one tile; the half on slot 0 comes from comparing a slot counter with zero), and afterwards
  exchanges the axes back and drops the padding. The array program gathers whole rows, reduces the three squares with a
  sum from zero, writes the logit as the negated distance times 200, takes the maximum with −∞ once more, sums from zero,
  and produces the half on slot 0 by writing one column into an array of zeros.

  The two agree entry by entry for every content of the arrays, finite or not: a sum of three terms from zero does not
  depend on how it is bracketed; (−s)·200 = s·(−200) for every extended real s, the second pattern denoting the negative
  of the first; the maximum with −∞ and the sum from zero change nothing; the two ways of producing the half on slot 0 give
  the same array; padding and the two exchanges of axes cancel on the query points that are kept, and a padded column
  never meets a kept one because a column's twelve slots are reduced among themselves only. So the precondition is not
  used beyond the frames. The kernel's idealization rewrote no operation, so there is nothing to preserve.

  Modules: the specification (Spec), the kernel's entry array (Entry), the grid body's column (BodyValue), from blocks to
  the array (Blocks), the host's last two operations (Tail), the kernel's run (KernelRun), the array program's result
  (RefValue, RefResult), over general readings of a batched gather of rows (LibGatherRows), a scatter that sets one column
  (LibScatterCol) and reductions of columns and rows (LibLaneCols, LibHostMax, LibSegSup).
-/
import proofs.«128598_j36876589203657_2_alg».proof.Defs
import proofs.«128598_j36876589203657_2_alg».proof.Proof.Gen.Kernel
import proofs.«128598_j36876589203657_2_alg».proof.Proof.Gen.Kernel.Skeleton
import proofs.«128598_j36876589203657_2_alg».proof.Proof.Gen.Kernel.Launch
import proofs.«128598_j36876589203657_2_alg».proof.Proof.Gen.Kernel.Points
import proofs.«128598_j36876589203657_2_alg».proof.Proof.Gen.Kernel.Frame
import proofs.«128598_j36876589203657_2_alg».proof.Proof.Gen.KernelIdeal
import proofs.«128598_j36876589203657_2_alg».proof.Proof.Gen.KernelIdeal.Skeleton
import proofs.«128598_j36876589203657_2_alg».proof.Proof.Gen.KernelIdeal.Launch
import proofs.«128598_j36876589203657_2_alg».proof.Proof.Gen.KernelIdeal.Points
import proofs.«128598_j36876589203657_2_alg».proof.Proof.Gen.KernelIdeal.Frame
import proofs.«128598_j36876589203657_2_alg».proof.Proof.Gen.ReferenceIdeal
import proofs.«128598_j36876589203657_2_alg».proof.Proof.Gen.ReferenceIdeal.Run
import proofs.«128598_j36876589203657_2_alg».proof.Proof.Gen.ReferenceIdeal.Read
import proofs.«128598_j36876589203657_2_alg».proof.Proof.Gen.Pre_finite_inputs
import proofs.«128598_j36876589203657_2_alg».proof.Proof.KernelRun
import proofs.«128598_j36876589203657_2_alg».proof.Proof.RefResult
import Idealize.ShloMosaic.Adequacy
import Idealize.ShloMosaic.Init

noncomputable section

namespace Cert.Proof

open Idealize.ShloMosaic Idealize.ShloMosaic.TcCoe Idealize.SL.Sem

/-- The start indices the two programs hand their gathers are one function of the index argument. -/
theorem starts_eq (x : IVec (⟨3, ![4, 50000, 12]⟩ : Shape) 32) :
    Cert.ReferenceIdeal.Read.val_main_v30 (F := Ideal) x = Cert.KernelIdeal.Entry.starts x := rfl

/-- The three frames: the two kernel programs' are the generated frame certificates; the array program's is its
    generated run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's result array of the arguments, which agree. -/
theorem algebraic : Cert.algebraic_KernelIdeal_ReferenceIdeal := by
  intro m ρ m' ρ' _ hagree
  refine ⟨fun c => KnnWeight.result (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.Entry.starts (m ((c.tc : Thread Cert.KernelIdeal.nD Cert.KernelIdeal.τ).loc Cert.KernelIdeal.main_arg4))),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.RefValue.ref_result, (hagree c).2.1, (hagree c).2.2.1,
    (hagree c).2.2.2.2.1, starts_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
